-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S32x32 .f32) (main_arg9 : FVec F S32 .f32) (main_arg10 : FVec F S32x1 .f32) (main_arg11 : FVec F S1 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg10
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S32 .f32) (main_arg6 : FVec F S32x32 .f32) (main_arg7 : FVec F S32 .f32) (main_arg8 : FVec F S32x32 .f32) (main_arg9 : FVec F S32 .f32) (main_arg10 : FVec F S32x1 .f32) (main_arg11 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x32 .f32) (main_arg3 : FVec F S32 .f32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x32 : Shape := ⟨2, ![100000, 32]⟩
abbrev S5000x128 : Shape := ⟨2, ![5000, 128]⟩
abbrev S5000x32 : Shape := ⟨2, ![5000, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 66
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000x32, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x32, .f32⟩
  | .hbm, ⟨26, _⟩ => ⟨S_, .f32⟩
  | .hbm, ⟨27, _⟩ => ⟨S100000x32, .f32⟩
  | .hbm, ⟨28, _⟩ => ⟨S1600000x1, .i32⟩
  | .hbm, ⟨29, _⟩ => ⟨S100000x32, .f32⟩
  | .hbm, ⟨30, _⟩ => ⟨S1x32, .f32⟩
  | .hbm, ⟨31, _⟩ => ⟨S1x32, .f32⟩
  | .hbm, ⟨32, _⟩ => ⟨S100000x32, .f32⟩
  | .hbm, ⟨33, _⟩ => ⟨S100000x32, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x32, .f32⟩
  | .hbm, ⟨43, _⟩ => ⟨S_, .f32⟩
  | .hbm, ⟨44, _⟩ => ⟨S100000x32, .f32⟩
  | .hbm, ⟨45, _⟩ => ⟨S1600000x1, .i32⟩
  | .hbm, ⟨46, _⟩ => ⟨S100000x32, .f32⟩
  | .hbm, ⟨47, _⟩ => ⟨S1x32, .f32⟩
  | .hbm, ⟨48, _⟩ => ⟨S1x32, .f32⟩
  | .hbm, ⟨49, _⟩ => ⟨S100000x32, .f32⟩
  | .hbm, ⟨50, _⟩ => ⟨S100000x1, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S1x1, .f32⟩
  | .hbm, ⟨65, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S1x32, .f32⟩
  | .local _ .vmem, ⟨10, _⟩ => ⟨S32x32, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S32x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S1x32, .f32⟩
  | .local _ .vmem, ⟨24, _⟩ => ⟨S32x32, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S32x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S1x1, .f32⟩
  | .local _ .vmem, ⟨38, _⟩ => ⟨S5000x1, .f32⟩
  | .local _ .vmem, ⟨39, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S1_S1x1 : S1.ShapeCasts S1x1
  shapeCasts_S5000x1_S5000x1 : S5000x1.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x32.size a ≤ S32x32.size a
  hwx3_3 : ∀ i : grid3.Coords, EltTy.bits .f32 = 32 ∨ (Rect.block (s := S32x32) S32x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .f32 = 32 ∨ (Rect.block (s := S100000x1) S5000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .f32 = 32 ∨ (Rect.block (s := S100000x1) S5000x1.size (cc5_transform_3 i) (hinb5_3 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v18) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S32x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v31) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v31) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v32) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v42) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v43) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S5000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x32 : Shape := ⟨2, ![100000, 32]⟩
abbrev S1x32 : Shape := ⟨2, ![1, 32]⟩
abbrev S1600000x32 : Shape := ⟨2, ![1600000, 32]⟩
abbrev S100000x1 : Shape := ⟨2, ![100000, 1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S100000x32, .f32⟩
  | .hbm, ⟨31, _⟩ => ⟨S1x32, .f32⟩
  | .hbm, ⟨32, _⟩ => ⟨S100000x32, .f32⟩
  | .hbm, ⟨33, _⟩ => ⟨S100000x32, .f32⟩
  | .hbm, ⟨34, _⟩ => ⟨S_, .f32⟩
  | .hbm, ⟨35, _⟩ => ⟨S100000x32, .f32⟩
  | .hbm, ⟨36, _⟩ => ⟨S100000x32, .f32⟩
  | .hbm, ⟨37, _⟩ => ⟨S100000x32, .f32⟩
  | .hbm, ⟨38, _⟩ => ⟨S1x32, .f32⟩
  | .hbm, ⟨39, _⟩ => ⟨S100000x32, .f32⟩
  | .hbm, ⟨40, _⟩ => ⟨S100000x32, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x32, .f32⟩
  | .hbm, ⟨50, _⟩ => ⟨S_, .f32⟩
  | .hbm, ⟨51, _⟩ => ⟨S100000x32, .f32⟩
  | .hbm, ⟨52, _⟩ => ⟨S1600000x1, .i32⟩
  | .hbm, ⟨53, _⟩ => ⟨S100000x32, .f32⟩
  | .hbm, ⟨54, _⟩ => ⟨S100000x32, .f32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x32, .f32⟩
  | .hbm, ⟨75, _⟩ => ⟨S_, .f32⟩
  | .hbm, ⟨76, _⟩ => ⟨S100000x32, .f32⟩
  | .hbm, ⟨77, _⟩ => ⟨S1600000x1, .i32⟩
  | .hbm, ⟨78, _⟩ => ⟨S100000x32, .f32⟩
  | .hbm, ⟨79, _⟩ => ⟨S100000x32, .f32⟩
  | .hbm, ⟨80, _⟩ => ⟨S100000x1, .f32⟩
  | .hbm, ⟨81, _⟩ => ⟨S1x1, .f32⟩
  | .hbm, ⟨82, _⟩ => ⟨S100000x1, .f32⟩
  | .hbm, ⟨83, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_cst : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_4 : Ref sig .tc := ⟨.hbm, 66, rfl⟩
abbrev main_v44 : Ref sig .tc := ⟨.hbm, 67, rfl⟩
abbrev main_v45 : Ref sig .tc := ⟨.hbm, 68, rfl⟩
abbrev main_c_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x1_S100000x1_1_0_0_1_n_n_wf : DotDims.WF S100000x32 S32x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  THE KERNEL PROGRAM'S RUN WITH ITS RESULT NAMED.

  The program is ten segments: four stretches of host operations and six pipelined kernel regions. Every weakly fair
  execution from a memory with zero counters terminates without a fault, and at the end every buffer outside the
  kernels' scopes holds the value obtained by folding the segments over the launch memory: a host stretch applies its
  operations, a region replaces each of its output arrays by what its write-backs leave. Read at the result's buffer
  this names the result; read at an argument's buffer it gives the argument back, since no segment writes one.
-/
import proofs.«120293_j27908697489545_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array ends at the fold's value at its buffer, and the twelve arguments end as launched. -/
theorem run_result : θ_run defs (onTc (τ := τ) (main (F := F))) ⟨m, fun _ => 0, ρ⟩ (fun r => ∀ c : Dev nD,
      r.2.mem ((c.tc : Thread nD τ).loc main_v44) = W10 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v44 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.Hand

end
-- ==== Proof.KKeep.lean ====
/-
  BUFFERS THAT NO LATER SEGMENT WRITES KEEP THEIR CONTENTS.

  The program's ten segments each write a known set of buffers: a host stretch writes its operations' results, a
  region writes its output array (its input arrays are handed back as found). A buffer outside those sets holds after
  the segment what it held before. Chained, this carries each argument array from the launch memory, the two index
  rows from the first host stretch, and each intermediate result from the segment that produced it, to the segment
  that reads it.
-/
import proofs.«120293_j27908697489545_2_alg».proof.Proof.Gen.KernelIdeal.Frame
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- A host stretch leaves a buffer none of its operations writes as it was. -/
macro "host_keep" : tactic => `(tactic| exact StableHlo.after_of_forall_not_mem _ _ (List.forall_iff_forall_mem.mp (by
  simp only [hostOps0, hostOps1, hostOps3, hostOps5, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

theorem at1_main_arg0 (c : Dev nD) : W1 m ρ c (Proc.devRef .tc main_arg0) = m ((c : Thread nD τ).loc main_arg0) :=
  ((show W1 m ρ c (Proc.devRef .tc main_arg0) = W0 m ρ c (Proc.devRef .tc main_arg0) by host_keep)).trans rfl

theorem at1_main_arg2 (c : Dev nD) : W1 m ρ c (Proc.devRef .tc main_arg2) = m ((c : Thread nD τ).loc main_arg2) :=
  ((show W1 m ρ c (Proc.devRef .tc main_arg2) = W0 m ρ c (Proc.devRef .tc main_arg2) by host_keep)).trans rfl

theorem at2_main_arg3 (c : Dev nD) : W2 m ρ c (Proc.devRef .tc main_arg3) = m ((c : Thread nD τ).loc main_arg3) :=
  ((W2_of_ne m ρ c main_arg3 (by decide)).trans ((show W1 m ρ c (Proc.devRef .tc main_arg3) = W0 m ρ c (Proc.devRef .tc main_arg3) by host_keep))).trans rfl

theorem at2_main_arg5 (c : Dev nD) : W2 m ρ c (Proc.devRef .tc main_arg5) = m ((c : Thread nD τ).loc main_arg5) :=
  ((W2_of_ne m ρ c main_arg5 (by decide)).trans ((show W1 m ρ c (Proc.devRef .tc main_arg5) = W0 m ρ c (Proc.devRef .tc main_arg5) by host_keep))).trans rfl

theorem at3_main_arg4 (c : Dev nD) : W3 m ρ c (Proc.devRef .tc main_arg4) = m ((c : Thread nD τ).loc main_arg4) :=
  ((show W3 m ρ c (Proc.devRef .tc main_arg4) = W2 m ρ c (Proc.devRef .tc main_arg4) by host_keep).trans ((W2_of_ne m ρ c main_arg4 (by decide)).trans ((show W1 m ρ c (Proc.devRef .tc main_arg4) = W0 m ρ c (Proc.devRef .tc main_arg4) by host_keep)))).trans rfl

theorem at4_main_arg6 (c : Dev nD) : W4 m ρ c (Proc.devRef .tc main_arg6) = m ((c : Thread nD τ).loc main_arg6) :=
  ((W4_of_ne m ρ c main_arg6 (by decide)).trans ((show W3 m ρ c (Proc.devRef .tc main_arg6) = W2 m ρ c (Proc.devRef .tc main_arg6) by host_keep).trans ((W2_of_ne m ρ c main_arg6 (by decide)).trans ((show W1 m ρ c (Proc.devRef .tc main_arg6) = W0 m ρ c (Proc.devRef .tc main_arg6) by host_keep))))).trans rfl

theorem at5_main_arg7 (c : Dev nD) : W5 m ρ c (Proc.devRef .tc main_arg7) = m ((c : Thread nD τ).loc main_arg7) :=
  ((W5_of_ne m ρ c main_arg7 (by decide)).trans ((W4_of_ne m ρ c main_arg7 (by decide)).trans ((show W3 m ρ c (Proc.devRef .tc main_arg7) = W2 m ρ c (Proc.devRef .tc main_arg7) by host_keep).trans ((W2_of_ne m ρ c main_arg7 (by decide)).trans ((show W1 m ρ c (Proc.devRef .tc main_arg7) = W0 m ρ c (Proc.devRef .tc main_arg7) by host_keep)))))).trans rfl

theorem at5_main_arg9 (c : Dev nD) : W5 m ρ c (Proc.devRef .tc main_arg9) = m ((c : Thread nD τ).loc main_arg9) :=
  ((W5_of_ne m ρ c main_arg9 (by decide)).trans ((W4_of_ne m ρ c main_arg9 (by decide)).trans ((show W3 m ρ c (Proc.devRef .tc main_arg9) = W2 m ρ c (Proc.devRef .tc main_arg9) by host_keep).trans ((W2_of_ne m ρ c main_arg9 (by decide)).trans ((show W1 m ρ c (Proc.devRef .tc main_arg9) = W0 m ρ c (Proc.devRef .tc main_arg9) by host_keep)))))).trans rfl

theorem at6_main_arg8 (c : Dev nD) : W6 m ρ c (Proc.devRef .tc main_arg8) = m ((c : Thread nD τ).loc main_arg8) :=
  ((show W6 m ρ c (Proc.devRef .tc main_arg8) = W5 m ρ c (Proc.devRef .tc main_arg8) by host_keep).trans ((W5_of_ne m ρ c main_arg8 (by decide)).trans ((W4_of_ne m ρ c main_arg8 (by decide)).trans ((show W3 m ρ c (Proc.devRef .tc main_arg8) = W2 m ρ c (Proc.devRef .tc main_arg8) by host_keep).trans ((W2_of_ne m ρ c main_arg8 (by decide)).trans ((show W1 m ρ c (Proc.devRef .tc main_arg8) = W0 m ρ c (Proc.devRef .tc main_arg8) by host_keep))))))).trans rfl

theorem at7_main_arg10 (c : Dev nD) : W7 m ρ c (Proc.devRef .tc main_arg10) = m ((c : Thread nD τ).loc main_arg10) :=
  ((W7_of_ne m ρ c main_arg10 (by decide)).trans ((show W6 m ρ c (Proc.devRef .tc main_arg10) = W5 m ρ c (Proc.devRef .tc main_arg10) by host_keep).trans ((W5_of_ne m ρ c main_arg10 (by decide)).trans ((W4_of_ne m ρ c main_arg10 (by decide)).trans ((show W3 m ρ c (Proc.devRef .tc main_arg10) = W2 m ρ c (Proc.devRef .tc main_arg10) by host_keep).trans ((W2_of_ne m ρ c main_arg10 (by decide)).trans ((show W1 m ρ c (Proc.devRef .tc main_arg10) = W0 m ρ c (Proc.devRef .tc main_arg10) by host_keep)))))))).trans rfl

theorem at8_main_arg11 (c : Dev nD) : W8 m ρ c (Proc.devRef .tc main_arg11) = m ((c : Thread nD τ).loc main_arg11) :=
  ((W8_of_ne m ρ c main_arg11 (by decide)).trans ((W7_of_ne m ρ c main_arg11 (by decide)).trans ((show W6 m ρ c (Proc.devRef .tc main_arg11) = W5 m ρ c (Proc.devRef .tc main_arg11) by host_keep).trans ((W5_of_ne m ρ c main_arg11 (by decide)).trans ((W4_of_ne m ρ c main_arg11 (by decide)).trans ((show W3 m ρ c (Proc.devRef .tc main_arg11) = W2 m ρ c (Proc.devRef .tc main_arg11) by host_keep).trans ((W2_of_ne m ρ c main_arg11 (by decide)).trans ((show W1 m ρ c (Proc.devRef .tc main_arg11) = W0 m ρ c (Proc.devRef .tc main_arg11) by host_keep))))))))).trans rfl

theorem at2_main_v1 (c : Dev nD) : W2 m ρ c (Proc.devRef .tc main_v1) = W1 m ρ c (Proc.devRef .tc main_v1) :=
  (W2_of_ne m ρ c main_v1 (by decide))

theorem at5_main_v1 (c : Dev nD) : W5 m ρ c (Proc.devRef .tc main_v1) = W1 m ρ c (Proc.devRef .tc main_v1) :=
  (W5_of_ne m ρ c main_v1 (by decide)).trans ((W4_of_ne m ρ c main_v1 (by decide)).trans ((show W3 m ρ c (Proc.devRef .tc main_v1) = W2 m ρ c (Proc.devRef .tc main_v1) by host_keep).trans ((W2_of_ne m ρ c main_v1 (by decide)))))

theorem at8_main_v1 (c : Dev nD) : W8 m ρ c (Proc.devRef .tc main_v1) = W1 m ρ c (Proc.devRef .tc main_v1) :=
  (W8_of_ne m ρ c main_v1 (by decide)).trans ((W7_of_ne m ρ c main_v1 (by decide)).trans ((show W6 m ρ c (Proc.devRef .tc main_v1) = W5 m ρ c (Proc.devRef .tc main_v1) by host_keep).trans ((W5_of_ne m ρ c main_v1 (by decide)).trans ((W4_of_ne m ρ c main_v1 (by decide)).trans ((show W3 m ρ c (Proc.devRef .tc main_v1) = W2 m ρ c (Proc.devRef .tc main_v1) by host_keep).trans ((W2_of_ne m ρ c main_v1 (by decide))))))))

theorem at2_main_v3 (c : Dev nD) : W2 m ρ c (Proc.devRef .tc main_v3) = W1 m ρ c (Proc.devRef .tc main_v3) :=
  (W2_of_ne m ρ c main_v3 (by decide))

theorem at5_main_v3 (c : Dev nD) : W5 m ρ c (Proc.devRef .tc main_v3) = W1 m ρ c (Proc.devRef .tc main_v3) :=
  (W5_of_ne m ρ c main_v3 (by decide)).trans ((W4_of_ne m ρ c main_v3 (by decide)).trans ((show W3 m ρ c (Proc.devRef .tc main_v3) = W2 m ρ c (Proc.devRef .tc main_v3) by host_keep).trans ((W2_of_ne m ρ c main_v3 (by decide)))))

theorem at8_main_v3 (c : Dev nD) : W8 m ρ c (Proc.devRef .tc main_v3) = W1 m ρ c (Proc.devRef .tc main_v3) :=
  (W8_of_ne m ρ c main_v3 (by decide)).trans ((W7_of_ne m ρ c main_v3 (by decide)).trans ((show W6 m ρ c (Proc.devRef .tc main_v3) = W5 m ρ c (Proc.devRef .tc main_v3) by host_keep).trans ((W5_of_ne m ρ c main_v3 (by decide)).trans ((W4_of_ne m ρ c main_v3 (by decide)).trans ((show W3 m ρ c (Proc.devRef .tc main_v3) = W2 m ρ c (Proc.devRef .tc main_v3) by host_keep).trans ((W2_of_ne m ρ c main_v3 (by decide))))))))

theorem at3_main_v4 (c : Dev nD) : W3 m ρ c (Proc.devRef .tc main_v4) = W2 m ρ c (Proc.devRef .tc main_v4) :=
  (show W3 m ρ c (Proc.devRef .tc main_v4) = W2 m ρ c (Proc.devRef .tc main_v4) by host_keep)

theorem at6_main_v18 (c : Dev nD) : W6 m ρ c (Proc.devRef .tc main_v18) = W5 m ρ c (Proc.devRef .tc main_v18) :=
  (show W6 m ρ c (Proc.devRef .tc main_v18) = W5 m ρ c (Proc.devRef .tc main_v18) by host_keep)

theorem at9_main_v32 (c : Dev nD) : W9 m ρ c (Proc.devRef .tc main_v32) = W8 m ρ c (Proc.devRef .tc main_v32) :=
  (show W9 m ρ c (Proc.devRef .tc main_v32) = W8 m ρ c (Proc.devRef .tc main_v32) by host_keep)

end Cert.KernelIdeal.Hand

end
-- ==== Proof.Spec.lean ====
/-
  THE TWO ORDERS OF A THREE-LAYER GRAPH NETWORK, AS FUNCTIONS ON THE EXTENDED REALS.

  A graph on 100000 nodes has 1600000 edges; edge `e` carries the features of its source row `r e` to every node `n`
  on which it lands (`L e n`). The neighbour sum of a feature table `f` is
      agg f n k = ∑ e, if L e n then f (r e) k else 0,
  and a layer adds a node's own features to its neighbour sum and applies a small dense network.

  One order (`rLayer`, `rFinal`, `rOut`) aggregates first and multiplies by the first weight matrix afterwards:
      relu ((f + agg f) · Wa + ba) · Wb + bb.
  The other (`kLayer`, `kFinal`, `kOut`) multiplies first, p = f · Wa, and aggregates the narrower product:
      relu ((p + agg p) + ba) · Wb + bb.
  They agree wherever `(f + agg f) · Wa = f · Wa + agg (f · Wa)`, the linearity of the neighbour sum, which holds on
  real entries (it distributes a product over a sum and exchanges two finite sums).

  Tables are curried, `Fin rows → Fin columns → EReal`; `mat` and `vec` read an array of a literal rank-2 or rank-1
  shape that way. `srcRow` and `lands` read the row an edge fetches (a signed row number clamped into the table) and
  the node it lands on (a signed node number, landing nowhere when out of range) from two integer columns.
-/
import Idealize.ShloMosaic.PureOps.Ideal
import Idealize.ShloMosaic.Lib.ValueIdx

noncomputable section

open scoped BigOperators

namespace Cert.Gin

open Idealize.ShloMosaic Idealize.ShloMosaic.ValueIdx

/-- The number of nodes. -/
abbrev NN : Nat := 100000
/-- The number of edges. -/
abbrev EE : Nat := 1600000

/-- A rank-2 array read as a curried table. -/
def mat {A B : Nat} (a : (⟨2, ![A, B]⟩ : Shape).Idx → EReal) : Fin A → Fin B → EReal := fun i j => a (ix2 i j)
/-- A rank-1 array read as a function of its position. -/
def vec {A : Nat} (a : (⟨1, ![A]⟩ : Shape).Idx → EReal) : Fin A → EReal := fun i => a (ix1 i)

/-- The row edge `e` fetches: its source number read signed and clamped into `[0, NN − 1]`. -/
def srcRow (src : IVec ⟨2, ![EE, 1]⟩ 32) : Fin EE → Fin NN :=
  fun e => ⟨min (src (ix2 e 0)).toInt.toNat (NN - 1), lt_of_le_of_lt (Nat.min_le_right _ _) (by unfold NN; omega)⟩
/-- Edge `e` lands on node `n` when its destination number, read signed, is `n`. -/
def lands (dst : IVec ⟨2, ![EE, 1]⟩ 32) : Fin EE → Fin NN → Prop :=
  fun e n => (dst (ix2 e 0)).toInt = (n.val : Int)
instance (dst : IVec ⟨2, ![EE, 1]⟩ 32) (e : Fin EE) (n : Fin NN) : Decidable (lands dst e n) := by
  unfold lands; infer_instance

section
variable (r : Fin EE → Fin NN) (L : Fin EE → Fin NN → Prop) [∀ e n, Decidable (L e n)]

/-- The neighbour sum of a feature table. -/
def agg {C : Nat} (f : Fin NN → Fin C → EReal) : Fin NN → Fin C → EReal :=
  fun n k => ∑ e : Fin EE, if L e n then f (r e) k else 0

/-- The product of a table with a weight matrix. -/
def mm {M K J : Nat} (f : Fin M → Fin K → EReal) (w : Fin K → Fin J → EReal) : Fin M → Fin J → EReal :=
  fun n j => ∑ k : Fin K, f n k * w k j

/-- A layer that multiplies by `wa` first and aggregates the product. -/
def kLayer {K : Nat} (f : Fin NN → Fin K → EReal) (wa : Fin K → Fin 32 → EReal) (ba : Fin 32 → EReal)
    (wb : Fin 32 → Fin 32 → EReal) (bb : Fin 32 → EReal) : Fin NN → Fin 32 → EReal :=
  fun n j => mm (fun n k => max ((mm f wa n k + agg r L (mm f wa) n k) + ba k) 0) wb n j + bb j

/-- A layer that aggregates first and multiplies by `wa` afterwards. -/
def rLayer {K : Nat} (f : Fin NN → Fin K → EReal) (wa : Fin K → Fin 32 → EReal) (ba : Fin 32 → EReal)
    (wb : Fin 32 → Fin 32 → EReal) (bb : Fin 32 → EReal) : Fin NN → Fin 32 → EReal :=
  fun n j => mm (fun n k => max (mm (fun n k => f n k + agg r L f n k) wa n k + ba k) 0) wb n j + bb j

/-- The last layer, product first. -/
def kFinal (f : Fin NN → Fin 32 → EReal) (w3 : Fin 32 → Fin 1 → EReal) (b3 : Fin 1 → EReal) : Fin NN → Fin 1 → EReal :=
  fun n u => (mm f w3 n u + agg r L (mm f w3) n u) + b3 u

/-- The last layer, neighbour sum first. -/
def rFinal (f : Fin NN → Fin 32 → EReal) (w3 : Fin 32 → Fin 1 → EReal) (b3 : Fin 1 → EReal) : Fin NN → Fin 1 → EReal :=
  fun n u => mm (fun n k => f n k + agg r L f n k) w3 n u + b3 u

/-- The whole network, product first in every layer. -/
def kOut (x : Fin NN → Fin 128 → EReal) (w1a : Fin 128 → Fin 32 → EReal) (b1a : Fin 32 → EReal)
    (w1b : Fin 32 → Fin 32 → EReal) (b1b : Fin 32 → EReal) (w2a : Fin 32 → Fin 32 → EReal) (b2a : Fin 32 → EReal)
    (w2b : Fin 32 → Fin 32 → EReal) (b2b : Fin 32 → EReal) (w3 : Fin 32 → Fin 1 → EReal) (b3 : Fin 1 → EReal) :
    Fin NN → Fin 1 → EReal :=
  kFinal r L (kLayer r L (kLayer r L x w1a b1a w1b b1b) w2a b2a w2b b2b) w3 b3

/-- The whole network, neighbour sum first in every layer. -/
def rOut (x : Fin NN → Fin 128 → EReal) (w1a : Fin 128 → Fin 32 → EReal) (b1a : Fin 32 → EReal)
    (w1b : Fin 32 → Fin 32 → EReal) (b1b : Fin 32 → EReal) (w2a : Fin 32 → Fin 32 → EReal) (b2a : Fin 32 → EReal)
    (w2b : Fin 32 → Fin 32 → EReal) (b2b : Fin 32 → EReal) (w3 : Fin 32 → Fin 1 → EReal) (b3 : Fin 1 → EReal) :
    Fin NN → Fin 1 → EReal :=
  rFinal r L (rLayer r L (rLayer r L x w1a b1a w1b b1b) w2a b2a w2b b2b) w3 b3

end

/-- A table all of whose entries are real numbers. -/
def RealTable {A B : Nat} (f : Fin A → Fin B → EReal) : Prop := ∃ g : Fin A → Fin B → ℝ, f = fun i j => ((g i j : ℝ) : EReal)
/-- A vector all of whose entries are real numbers. -/
def RealVec {A : Nat} (f : Fin A → EReal) : Prop := ∃ g : Fin A → ℝ, f = fun i => ((g i : ℝ) : EReal)

end Cert.Gin

end
-- ==== Proof.LibRowGatherScatter.lean ====
/-
  A ROW GATHER AND A ROW SCATTER-ADD, READ AT AN INDEX.

  Two host-side indexing operations on a matrix whose rows are addressed by a column of integer row numbers:

  * the gather `x[idx]` of `x : [N, C]` at `idx : [E, 1]`: result row `e` is operand row `idx[e, 0]`, the row number
    read signed and CLAMPED into `[0, N − 1]` (`rowGatherDims`, `gather_rows_apply`); and its rank-1 companion, the
    gather of a flat `x : [N]` at the same kind of index column (`takeRowDims`, `gather_take1_apply`);

  * the segment sum of update rows `upd : [E, C]` by segment numbers `seg : [E, 1]` into `[N, C]`: an accumulating
    scatter in which update row `e` is added onto operand row `seg[e, 0]`, the number read signed and NOT clamped — an
    update whose number is outside `[0, N)` is dropped —, the column kept (`rowScatterDims`, `rowScatter_resultIdx`,
    `hostScatterAdd_rows_apply`). At the exact instance (extended reals) the result at `(n, k)` is the operand's
    element plus the sum, over the update rows `e` whose number is `n`, of `upd[e, k]`.

  Both are statements about the dimension numbers alone: the gather lemma holds for any element type, the scatter
  lemma for the exact accumulating scatter. Nothing here mentions a program.
-/
import Idealize.ShloMosaic.PureOps.Ideal
import Idealize.ShloMosaic.Lib.ValueIdx

noncomputable section

open scoped BigOperators

namespace Idealize.ShloMosaic.RowGatherScatter

open Idealize.ShloMosaic Idealize.ShloMosaic.ValueIdx

/-- An axis of a rank-2 shape is the first or the second. -/
theorem fin2_cases (a : Fin 2) : a = 0 ∨ a = 1 := by
  rcases a with ⟨v, hv⟩
  interval_cases v
  · exact Or.inl rfl
  · exact Or.inr rfl

/-! ## A row gather: `x[idx]` of a matrix at a column of row numbers

For `x : [N, C]` and integer row numbers `idx : [E, 1]`, `x[idx[:, 0]]` is a gather whose slices are whole rows:
offset_dims `[1]` (the result's column axis is the slice's), collapsed_slice_dims `[0]` (the operand's row axis has
slice size 1 and disappears), start_index_map `[0]` (the one component of a start index is a row number),
index_vector_dim `1` and slice_sizes `[1, C]`. Result element `(e, j)` is the operand at row `idx[e, 0]` — read as
a signed integer and clamped into `[0, N − 1]`, as a gather clamps every start index — and column `j`. -/

section Gather
variable {α : Type}

/-- Those dimension numbers for an operand `[N, C]`, start indices `[E, 1]` and result `[E, C]`; their conditions
    `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand at row `idx[e, 0]` (signed, clamped into `[0, N − 1]`) and
    column `j`. On the row axis the operand coordinate is the clamped start alone (the axis is collapsed: no offset,
    and there are no batching axes); on the column axis the start is `0` (the axis is not in the start index map)
    and the offset is the result's column coordinate. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N E C wf) x idx (ix2 e j)
      = x (ix2 ⟨min (idx (ix2 e 0)).toInt.toNat (N - 1), by omega⟩ j) := by
  unfold Host.gather
  congr 1
  funext a
  refine Fin.ext ?_
  show (rowGatherDims N E C wf).start (ix2 e j) idx a + (rowGatherDims N E C wf).batchCoord (ix2 e j) a
    + (rowGatherDims N E C wf).offCoord (ix2 e j) a = _
  rw [GatherDims.batchCoord_eq_zero _ _ _ List.not_mem_nil]
  rcases fin2_cases a with rfl | rfl
  · -- the row axis: collapsed, so no offset; the start is the clamped row number
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e j) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · -- the column axis: not a start-index axis, so the start is 0; the offset is the result's column
    have h1 : (1 : Fin 2) ∉ (rowGatherDims N E C wf).startIndexMap := by
      show (1 : Fin 2) ∉ ([0] : List (Fin 2)); decide
    have hk : (1 : Fin 2) ∈ (rowGatherDims N E C wf).sKept := by
      rw [GatherDims.mem_sKept]
      show (1 : Fin 2) ∉ ([0] : List (Fin 2)) ∧ (1 : Fin 2) ∉ ([] : List (Fin 2)); decide
    unfold GatherDims.start GatherDims.offCoord
    rw [dif_neg h1, dif_pos hk]
    simp only [Nat.zero_add]
    rfl

end Gather

/-! ## A row scatter-add: a segment sum of update rows into a matrix

For updates `upd : [E, C]` and integer segment numbers `seg : [E, 1]`, the segment sum into `[N, C]` is an
accumulating scatter whose windows are whole rows: update_window_dims `[1]` (the updates' column axis is the window's),
inserted_window_dims `[0]` (the operand's row axis has window size 1), scatter_dims_to_operand_dims `[0]` (the one
component of a scatter index is a row number) and index_vector_dim `1`. Update element `(e, j)` lands on operand
element `(seg[e, 0], j)` when that row number, read signed, is in `[0, N)`, and nowhere otherwise. -/

section Scatter

/-- Those dimension numbers for an operand `[N, C]`, scatter indices `[E, 1]` and updates `[E, C]`; their conditions
    `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the segment number of the update's row, read signed. -/
theorem rowScatter_start0 (idx : IVec ⟨2, ![E, 1]⟩ w) (e : Fin E) (j : Fin C) :
    (rowScatterDims N E C wf).start (ix2 e j) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e j)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis (not named by the scatter-dims map) the window starts at `0`. -/
theorem rowScatter_start1 (idx : IVec ⟨2, ![E, 1]⟩ w) (e : Fin E) (j : Fin C) :
    (rowScatterDims N E C wf).start (ix2 e j) idx (1 : Fin 2) = 0 := by
  unfold ScatterDims.start
  rw [dif_neg (show (1 : Fin 2) ∉ ([0] : List (Fin 2)) by decide)]

/-- The row axis is an inserted window axis: its window coordinate is `0`. -/
theorem rowScatter_window0 (e : Fin E) (j : Fin C) :
    (rowScatterDims N E C wf).window (ix2 e j) (0 : Fin 2) = 0 := by
  unfold ScatterDims.window
  rw [dif_neg]
  show (0 : Fin 2) ∉ (List.finRange 2).filter (· ∉ ([0] : List (Fin 2)))
  decide

/-- The column axis carries the updates' window axis: its window coordinate is the update's column. -/
theorem rowScatter_window1 (e : Fin E) (j : Fin C) :
    (rowScatterDims N E C wf).window (ix2 e j) (1 : Fin 2) = j.val := by
  unfold ScatterDims.window
  have hk : (1 : Fin 2) ∈ (rowScatterDims N E C wf).sKept := by
    show (1 : Fin 2) ∈ (List.finRange 2).filter (· ∉ ([0] : List (Fin 2)))
    decide
  rw [dif_pos hk]
  rfl

/-- WHERE AN UPDATE LANDS: update element `(e, j)` lands on operand element `(n, k)` exactly when its row's segment
    number, read signed, IS `n` and the columns agree. (A number outside `[0, N)` equals no `n : Fin N`: the update is
    dropped.) The landing index is start plus window coordinate on each axis — `seg[e, 0] + 0` on rows, `0 + j` on
    columns — provided both are in range. -/
theorem rowScatter_resultIdx (idx : IVec ⟨2, ![E, 1]⟩ w) (e : Fin E) (j : Fin C) (n : Fin N) (k : Fin C) :
    (rowScatterDims N E C wf).resultIdx? (ix2 e j) idx = some (ix2 n k)
      ↔ ((idx (ix2 e 0)).toInt = (n.val : Int) ∧ j = k) := by
  have hs0 := rowScatter_start0 wf idx e j
  have hs1 := rowScatter_start1 wf idx e j
  have hw0 := rowScatter_window0 wf e j
  have hw1 := rowScatter_window1 wf e j
  have hn : n.val < N := n.isLt
  have hj : j.val < C := j.isLt
  unfold ScatterDims.resultIdx?
  constructor
  · intro h
    split at h
    · rename_i hall
      have hf := Option.some.inj h
      have h0 := congrArg Fin.val (congrFun hf (0 : Fin 2))
      have h1 := congrArg Fin.val (congrFun hf (1 : Fin 2))
      have ha0 := (hall (0 : Fin 2)).1
      change ((rowScatterDims N E C wf).start (ix2 e j) idx (0 : Fin 2)
        + ((rowScatterDims N E C wf).window (ix2 e j) (0 : Fin 2) : Int)).toNat = n.val at h0
      change ((rowScatterDims N E C wf).start (ix2 e j) idx (1 : Fin 2)
        + ((rowScatterDims N E C wf).window (ix2 e j) (1 : Fin 2) : Int)).toNat = k.val at h1
      rw [hs0, hw0] at h0 ha0
      rw [hs1, hw1] at h1
      refine ⟨by omega, Fin.ext (by omega)⟩
    · exact absurd h (by simp)
  · rintro ⟨hz, rfl⟩
    have hall : ∀ a, 0 ≤ (rowScatterDims N E C wf).start (ix2 e j) idx a + ((rowScatterDims N E C wf).window (ix2 e j) a : Int)
        ∧ (rowScatterDims N E C wf).start (ix2 e j) idx a + ((rowScatterDims N E C wf).window (ix2 e j) a : Int)
          < ((⟨2, ![N, C]⟩ : Shape).size a : Int) := by
      intro a
      rcases fin2_cases a with rfl | rfl
      · rw [hs0, hw0, hz]
        show (0 : Int) ≤ (n.val : Int) + ((0 : Nat) : Int) ∧ (n.val : Int) + ((0 : Nat) : Int) < (N : Int)
        omega
      · rw [hs1, hw1]
        show (0 : Int) ≤ 0 + (j.val : Int) ∧ 0 + (j.val : Int) < (C : Int)
        omega
    rw [dif_pos hall]
    congr 1
    funext a
    refine Fin.ext ?_
    rcases fin2_cases a with rfl | rfl
    · show ((rowScatterDims N E C wf).start (ix2 e j) idx (0 : Fin 2)
        + ((rowScatterDims N E C wf).window (ix2 e j) (0 : Fin 2) : Int)).toNat = n.val
      rw [hs0, hw0, hz]; omega
    · show ((rowScatterDims N E C wf).start (ix2 e j) idx (1 : Fin 2)
        + ((rowScatterDims N E C wf).window (ix2 e j) (1 : Fin 2) : Int)).toNat = j.val
      rw [hs1, hw1]; omega

/-- THE ROW SCATTER-ADD READ AT `(n, k)`: the operand's element plus the sum over the update rows whose segment
    number is `n` of their column-`k` element. The sum over all update elements that land on `(n, k)` is split by
    update row and column; within a row only column `k` can land there, and it does iff the row's number is `n`. -/
theorem hostScatterAdd_rows_apply (x0 : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x0 idx upd (ix2 n k)
      = x0 (ix2 n k) + ∑ e : Fin E, if (idx (ix2 e 0)).toInt = (n.val : Int) then upd (ix2 e k) else 0 := by
  unfold Ideal.hostScatterAdd
  congr 1
  rw [Finset.sum_filter, sum_idx2]
  refine Finset.sum_congr rfl (fun e _ => ?_)
  simp only [rowScatter_resultIdx]
  by_cases hz : (idx (ix2 e 0)).toInt = (n.val : Int)
  · simp only [hz, true_and, if_true]
    rw [Finset.sum_ite_eq']
    simp
  · simp [hz]

end Scatter

/-! ## The rank-1 companion: a flat array gathered at a column of positions -/

section Take1
variable {α : Type}

/-- The dimension numbers of `x[idx[:, 0]]` for a flat operand `[N]`, start indices `[E, 1]` and result `[E]`: no
    offset axes, the operand's one axis collapsed, the one component of a start index a position, index_vector_dim
    `1`, slice size `1`. -/
abbrev takeRowDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at position `idx[e, 0]`, read signed and clamped into `[0, N − 1]`. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (takeRowDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (takeRowDims N E wf).start (ix1 e) idx 0 + (takeRowDims N E wf).batchCoord (ix1 e) 0
    + (takeRowDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeRowDims N E wf).startIndexMap from List.mem_singleton.mpr rfl)]
  have hsi : (takeRowDims N E wf).siIdx (ix1 e) ⟨List.idxOf (0 : Fin 1) (takeRowDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Take1

end Idealize.ShloMosaic.RowGatherScatter

end
-- ==== Proof.KAgg.lean ====
/-
  THE NEIGHBOUR SUM ON THE HOST, READ AT AN ENTRY.

  Between its kernel regions the program aggregates a feature table F over the edges: it gathers row `src e` of F for
  every edge e (the source number read signed and clamped into the table) and adds the gathered rows into a table of
  zeros at row `dst e` (an edge whose destination number is outside the table is dropped). At entry (n, k) that is
  the sum, over the edges landing on n, of F at the edge's source row and column k: the specification's `agg`.
  The integer columns are computed once from the [2, 1600000] edge array: row 0, with negative numbers wrapped by
  adding 100000, is the source column; row 1 is the destination column. A bias vector enters a region as a one-row
  matrix.
-/
import proofs.«120293_j27908697489545_2_alg».proof.KernelIdeal
import proofs.«120293_j27908697489545_2_alg».proof.Proof.Gen.KernelIdeal
import proofs.«120293_j27908697489545_2_alg».proof.Proof.Spec
import proofs.«120293_j27908697489545_2_alg».proof.Proof.LibRowGatherScatter
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Hand

open Cert.KernelIdeal Cert.KernelIdeal.Facts Cert.KernelIdeal.Gen Cert.Gin
open Idealize.ShloMosaic Idealize.ShloMosaic.ValueIdx

/-- Row 0 of the edge array, flat: the source numbers as given. -/
def srcFlat (a1 : IVec S2x1600000 32) : IVec S1600000 32 :=
  shapeCast S1600000 (extractStridedSlice S1x1600000 ![0, 0] a1 slices_S2x1600000_S1x1600000_0_0) shapeCasts_S1x1600000_S1600000

/-- Row 1 of the edge array, flat: the destination numbers. -/
def dstFlat (a1 : IVec S2x1600000 32) : IVec S1600000 32 :=
  shapeCast S1600000 (extractStridedSlice S1x1600000 ![1, 0] a1 slices_S2x1600000_S1x1600000_1_0) shapeCasts_S1x1600000_S1600000

/-- The source column: a negative source number has 100000 added. -/
def srcCol (a1 : IVec S2x1600000 32) : IVec S1600000x1 32 :=
  broadcastInDim S1600000x1 ![0] bcast_S1600000_S1600000x1_0
    (select (cmpi .slt (srcFlat a1) (broadcastInDim S1600000 ![] bcast_S_S1600000 (constantI S_ 32 0#32)))
      (addi (srcFlat a1) (broadcastInDim S1600000 ![] bcast_S_S1600000 (constantI S_ 32 100000#32))) (srcFlat a1))

/-- The destination column. -/
def dstCol (a1 : IVec S2x1600000 32) : IVec S1600000x1 32 :=
  broadcastInDim S1600000x1 ![0] bcast_S1600000_S1600000x1_0 (dstFlat a1)

/-- The neighbour sum of a 32-column table, as the host computes it. -/
def aggArr32 (a1 : IVec S2x1600000 32) (T : S100000x32.Idx → EReal) : S100000x32.Idx → EReal :=
  Host.scatterAdd (F := Ideal) scatter_S100000x32_S1600000x1_S1600000x32_1_0_0_1
    (broadcastInDim S100000x32 ![] bcast_S_S100000x32 (constant (F := Ideal) S_ .f32 0x00000000#32)) (dstCol a1)
    (Host.gather gather_S100000x32_S1600000x1_S1600000x32_1_0_n_n_0_1_132 T (srcCol a1))

/-- The neighbour sum of a one-column table, as the host computes it. -/
def aggArr1 (a1 : IVec S2x1600000 32) (T : S100000x1.Idx → EReal) : S100000x1.Idx → EReal :=
  Host.scatterAdd (F := Ideal) scatter_S100000x1_S1600000x1_S1600000x1_1_0_0_1
    (broadcastInDim S100000x1 ![] bcast_S_S100000x1 (constant (F := Ideal) S_ .f32 0x00000000#32)) (dstCol a1)
    (Host.gather gather_S100000x1_S1600000x1_S1600000x1_1_0_n_n_0_1_11 T (srcCol a1))

/-- A 32-vector as a one-row matrix. -/
def row32 (b : S32.Idx → EReal) : S1x32.Idx → EReal := shapeCast S1x32 b shapeCasts_S32_S1x32
/-- A 1-vector as a one-by-one matrix. -/
def row1 (b : S1.Idx → EReal) : S1x1.Idx → EReal := shapeCast S1x1 b shapeCasts_S1_S1x1

/-- The table of zeros the sum starts from. -/
theorem zero32_apply (i : S100000x32.Idx) :
    broadcastInDim S100000x32 ![] bcast_S_S100000x32 (constant (F := Ideal) S_ .f32 0x00000000#32) i = 0 := by
  rw [broadcastInDim_apply ![] bcast_S_S100000x32 _ i ix0 (fun a => a.elim0), constant_apply, Ideal.ofBits_zero_f32]

theorem zero1_apply (i : S100000x1.Idx) :
    broadcastInDim S100000x1 ![] bcast_S_S100000x1 (constant (F := Ideal) S_ .f32 0x00000000#32) i = 0 := by
  rw [broadcastInDim_apply ![] bcast_S_S100000x1 _ i ix0 (fun a => a.elim0), constant_apply, Ideal.ofBits_zero_f32]

/-- The printed scatter and gather records are the row scatter and the row gather of their shapes. -/
theorem scatter32_eq : scatter_S100000x32_S1600000x1_S1600000x32_1_0_0_1
    = RowGatherScatter.rowScatterDims 100000 1600000 32 scatter_S100000x32_S1600000x1_S1600000x32_1_0_0_1_wf := rfl
theorem gather32_eq : gather_S100000x32_S1600000x1_S1600000x32_1_0_n_n_0_1_132
    = RowGatherScatter.rowGatherDims 100000 1600000 32 gather_S100000x32_S1600000x1_S1600000x32_1_0_n_n_0_1_132_wf := rfl
theorem scatter1_eq : scatter_S100000x1_S1600000x1_S1600000x1_1_0_0_1
    = RowGatherScatter.rowScatterDims 100000 1600000 1 scatter_S100000x1_S1600000x1_S1600000x1_1_0_0_1_wf := rfl
theorem gather1_eq : gather_S100000x1_S1600000x1_S1600000x1_1_0_n_n_0_1_11
    = RowGatherScatter.rowGatherDims 100000 1600000 1 gather_S100000x1_S1600000x1_S1600000x1_1_0_n_n_0_1_11_wf := rfl

/-- The host's accumulating scatter at the exact instance is the exact sum, whatever the dimension numbers. -/
theorem hostScatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- THE 32-COLUMN NEIGHBOUR SUM AT (n, k). -/
theorem aggArr32_apply (a1 : IVec S2x1600000 32) (T : S100000x32.Idx → EReal) (n : Fin 100000) (k : Fin 32) :
    aggArr32 a1 T (ix2 n k) = agg (srcRow (srcCol a1)) (lands (dstCol a1)) (mat T) n k := by
  unfold aggArr32
  rw [scatter32_eq, gather32_eq, hostScatterAdd_ideal, RowGatherScatter.hostScatterAdd_rows_apply, zero32_apply, zero_add]
  unfold agg
  refine Finset.sum_congr rfl fun e _ => ?_
  rw [RowGatherScatter.gather_rows_apply (N := 100000) (by decide)]
  rfl

/-- THE ONE-COLUMN NEIGHBOUR SUM AT (n, u). -/
theorem aggArr1_apply (a1 : IVec S2x1600000 32) (T : S100000x1.Idx → EReal) (n : Fin 100000) (u : Fin 1) :
    aggArr1 a1 T (ix2 n u) = agg (srcRow (srcCol a1)) (lands (dstCol a1)) (mat T) n u := by
  unfold aggArr1
  rw [scatter1_eq, gather1_eq, hostScatterAdd_ideal, RowGatherScatter.hostScatterAdd_rows_apply, zero1_apply, zero_add]
  unfold agg
  refine Finset.sum_congr rfl fun e _ => ?_
  rw [RowGatherScatter.gather_rows_apply (N := 100000) (by decide)]
  rfl

/-- A bias row at (0, k) is the bias at k. -/
theorem row32_apply (b : S32.Idx → EReal) (k : Fin 32) : row32 b (ix2 (0 : Fin 1) k) = vec b k :=
  shapeCast_a_1a_apply b shapeCasts_S32_S1x32 0 k

theorem row1_apply (b : S1.Idx → EReal) (u : Fin 1) : row1 b (ix2 (0 : Fin 1) u) = vec b u :=
  shapeCast_a_1a_apply b shapeCasts_S1_S1x1 0 u

end Cert.KernelIdeal.Hand

end
-- ==== Proof.LibPlainDot.lean ====
/-
  A PLAIN MATRIX PRODUCT'S CONTRACTION AS A SUM OVER ITS INNER EXTENT.

  For dimension numbers of a product of an [M, K] matrix with a [K, N] matrix into [M, N] — one contracted axis, the
  left operand's second against the right operand's first, no batch axis — the contraction ranges over a rank-one
  index type of extent K. Whenever the record's operand indices at result entry (r, c) and contraction position k are
  (r, k) and (k, c) (four coordinate equations, each `rfl` for a record with literal axis lists), the contraction
      ∑ k, lhs (lhsIdx (r, c) k) * rhs (rhsIdx (r, c) k)
  is ∑ k : Fin K, lhs (r, k) * rhs (k, c). Both a vector unit's product into a zero accumulator and a host
  dot_general read as that contraction at the exact instance, so both are this sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The contraction of a plain product at entry `(r, c)`, re-indexed by the one contraction coordinate. -/
theorem contraction_eq_sum {M K N : Nat} (d : DotDims ⟨2, ![M, K]⟩ ⟨2, ![K, N]⟩ ⟨2, ![M, N]⟩)
    (hr : d.contr.rank = 1) (hs : d.contr.size ⟨0, by omega⟩ = K)
    (h1 : ∀ (j : (⟨2, ![M, N]⟩ : Shape).Idx) (k : d.contr.Idx), (d.lhsIdx j k 0).val = (j 0).val)
    (h2 : ∀ (j : (⟨2, ![M, N]⟩ : Shape).Idx) (k : d.contr.Idx), (d.lhsIdx j k 1).val = (k ⟨0, by omega⟩).val)
    (h3 : ∀ (j : (⟨2, ![M, N]⟩ : Shape).Idx) (k : d.contr.Idx), (d.rhsIdx j k 0).val = (k ⟨0, by omega⟩).val)
    (h4 : ∀ (j : (⟨2, ![M, N]⟩ : Shape).Idx) (k : d.contr.Idx), (d.rhsIdx j k 1).val = (j 1).val)
    (lhs : (⟨2, ![M, K]⟩ : Shape).Idx → EReal) (rhs : (⟨2, ![K, N]⟩ : Shape).Idx → EReal) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hr hs).symm]
  refine Finset.sum_congr rfl fun k _ => ?_
  have el : d.lhsIdx (ix2 r c) ((contrEquiv1 d K hr hs).symm k) = ix2 r k := by
    funext a
    refine Fin.ext ?_
    match a with
    | ⟨0, _⟩ => exact h1 _ _
    | ⟨1, _⟩ => exact (h2 _ _).trans (contrEquiv1_symm_val d K hr hs k)
  have er : d.rhsIdx (ix2 r c) ((contrEquiv1 d K hr hs).symm k) = ix2 k c := by
    funext a
    refine Fin.ext ?_
    match a with
    | ⟨0, _⟩ => exact (h3 _ _).trans (contrEquiv1_symm_val d K hr hs k)
    | ⟨1, _⟩ => exact h4 _ _
  rw [el, er]

end Idealize.ShloMosaic.PlainDot

end
-- ==== Proof.KPay.lean ====
/-
  THE SIX KERNEL BODIES, READ AT AN ENTRY.

  Each body computes one row tile (5000 rows) of its output from the same row tile of its row-tiled inputs and from
  small resident operands. At the exact instance a change of float format is the identity and a product into a zero
  accumulator is the plain sum over the contracted axis, so at entry (p, j) of the tile:
    * a projection body gives  ∑ k, x (p, k) · w (k, j);
    * an epilogue body gives   (∑ k, max ((s (p, k) + a (p, k)) + b (0, k)) 0 · w (k, j)) + b' (0, j);
    * the final body gives     (s (p, u) + a (p, u)) + b (0, 0).
  Row p of the output depends on row p of the tiled inputs only.
-/
import proofs.«120293_j27908697489545_2_alg».proof.Proof.Gen.KernelIdeal.Skeleton
import proofs.«120293_j27908697489545_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gin.Kern

open Cert.KernelIdeal Cert.KernelIdeal.Gen Idealize.ShloMosaic Idealize.ShloMosaic.ValueIdx

/-- The first projection: a [5000,128] tile times the resident [128,32] weights. -/
theorem pay0 (x0 : Vec Ideal S5000x128 .f32) (x1 : Vec Ideal S128x32 .f32) (p : Fin 5000) (j : Fin 32) :
    k0_pay1 (F := Ideal) x0 x1 (ix2 p j) = ∑ k : Fin 128, x0 (ix2 p k) * x1 (ix2 k j) := by
  unfold k0_pay1
  refine (Ideal.matmul_constant_zero_apply dot_S5000x128_S128x32_S5000x32_1_0_0_1_n_n none _ _ (ix2 p j)).trans ?_
  exact PlainDot.contraction_eq_sum dot_S5000x128_S128x32_S5000x32_1_0_0_1_n_n rfl rfl
    (fun _ _ => rfl) (fun _ _ => rfl) (fun _ _ => rfl) (fun _ _ => rfl) _ _ p j

/-- The second projection: a [5000,32] tile times the resident [32,32] weights. -/
theorem pay2 (x0 : Vec Ideal S5000x32 .f32) (x1 : Vec Ideal S32x32 .f32) (p : Fin 5000) (j : Fin 32) :
    k2_pay1 (F := Ideal) x0 x1 (ix2 p j) = ∑ k : Fin 32, x0 (ix2 p k) * x1 (ix2 k j) := by
  unfold k2_pay1
  rw [shapeCast_self]
  refine (Ideal.matmul_constant_zero_apply dot_S5000x32_S32x32_S5000x32_1_0_0_1_n_n none _ _ (ix2 p j)).trans ?_
  exact PlainDot.contraction_eq_sum dot_S5000x32_S32x32_S5000x32_1_0_0_1_n_n rfl rfl
    (fun _ _ => rfl) (fun _ _ => rfl) (fun _ _ => rfl) (fun _ _ => rfl) _ _ p j

/-- The third projection: a [5000,32] tile times the resident [32,1] weights. -/
theorem pay4 (x0 : Vec Ideal S5000x32 .f32) (x1 : Vec Ideal S32x1 .f32) (p : Fin 5000) (u : Fin 1) :
    k4_pay1 (F := Ideal) x0 x1 (ix2 p u) = ∑ k : Fin 32, x0 (ix2 p k) * x1 (ix2 k u) := by
  unfold k4_pay1
  rw [shapeCast_self]
  refine (Ideal.matmul_constant_zero_apply dot_S5000x32_S32x1_S5000x1_1_0_0_1_n_n none _ _ (ix2 p u)).trans ?_
  exact PlainDot.contraction_eq_sum dot_S5000x32_S32x1_S5000x1_1_0_0_1_n_n rfl rfl
    (fun _ _ => rfl) (fun _ _ => rfl) (fun _ _ => rfl) (fun _ _ => rfl) _ _ p u

/-- The activation of an epilogue at (p, k): own term plus neighbour sum plus bias, cut off below at zero. -/
theorem act_apply (x0 x1 : Vec Ideal S5000x32 .f32) (x2 : Vec Ideal S1x32 .f32) (h : S1x32.Broadcasts S5000x32)
    (p : Fin 5000) (k : Fin 32) :
    maximumf (addf (addf x0 x1) (broadcastTo S5000x32 x2 h)) (broadcast S5000x32 (Scalar.ofBits (F := Ideal) .f32 0x00000000#32)) (ix2 p k)
      = max ((x0 (ix2 p k) + x1 (ix2 p k)) + x2 (ix2 (0 : Fin 1) k)) 0 := by
  rw [maximumf_apply, addf_apply, addf_apply, broadcast_apply, broadcastTo_1b_ab_apply]
  show max _ (Ideal.ofBits .f32 0x00000000#32) = _
  rw [Ideal.ofBits_zero_f32]

/-- The first epilogue. -/
theorem pay1 (x0 x1 : Vec Ideal S5000x32 .f32) (x2 : Vec Ideal S1x32 .f32) (x3 : Vec Ideal S32x32 .f32) (x4 : Vec Ideal S1x32 .f32)
    (p : Fin 5000) (j : Fin 32) :
    k1_pay1 (F := Ideal) x0 x1 x2 x3 x4 (ix2 p j)
      = (∑ k : Fin 32, max ((x0 (ix2 p k) + x1 (ix2 p k)) + x2 (ix2 (0 : Fin 1) k)) 0 * x3 (ix2 k j)) + x4 (ix2 (0 : Fin 1) j) := by
  unfold k1_pay1
  simp only [shapeCast_self]
  rw [addf_apply, broadcastTo_1b_ab_apply]
  congr 1
  refine (Ideal.matmul_constant_zero_apply dot_S5000x32_S32x32_S5000x32_1_0_0_1_n_n none _ _ (ix2 p j)).trans ?_
  refine (PlainDot.contraction_eq_sum dot_S5000x32_S32x32_S5000x32_1_0_0_1_n_n rfl rfl
    (fun _ _ => rfl) (fun _ _ => rfl) (fun _ _ => rfl) (fun _ _ => rfl) _ _ p j).trans ?_
  refine Finset.sum_congr rfl fun k _ => ?_
  congr 1
  exact act_apply x0 x1 x2 _ p k

/-- The second epilogue. -/
theorem pay3 (x0 x1 : Vec Ideal S5000x32 .f32) (x2 : Vec Ideal S1x32 .f32) (x3 : Vec Ideal S32x32 .f32) (x4 : Vec Ideal S1x32 .f32)
    (p : Fin 5000) (j : Fin 32) :
    k3_pay1 (F := Ideal) x0 x1 x2 x3 x4 (ix2 p j)
      = (∑ k : Fin 32, max ((x0 (ix2 p k) + x1 (ix2 p k)) + x2 (ix2 (0 : Fin 1) k)) 0 * x3 (ix2 k j)) + x4 (ix2 (0 : Fin 1) j) := by
  unfold k3_pay1
  simp only [shapeCast_self]
  rw [addf_apply, broadcastTo_1b_ab_apply]
  congr 1
  refine (Ideal.matmul_constant_zero_apply dot_S5000x32_S32x32_S5000x32_1_0_0_1_n_n none _ _ (ix2 p j)).trans ?_
  refine (PlainDot.contraction_eq_sum dot_S5000x32_S32x32_S5000x32_1_0_0_1_n_n rfl rfl
    (fun _ _ => rfl) (fun _ _ => rfl) (fun _ _ => rfl) (fun _ _ => rfl) _ _ p j).trans ?_
  refine Finset.sum_congr rfl fun k _ => ?_
  congr 1
  exact act_apply x0 x1 x2 _ p k

/-- The final body: own term plus neighbour sum plus the one bias. -/
theorem pay5 (x0 x1 : Vec Ideal S5000x1 .f32) (x2 : Vec Ideal S1x1 .f32) (p : Fin 5000) (u : Fin 1) :
    k5_pay1 (F := Ideal) x0 x1 x2 (ix2 p u) = (x0 (ix2 p u) + x1 (ix2 p u)) + x2 (ix2 (0 : Fin 1) u) := by
  unfold k5_pay1
  simp only [shapeCast_self]
  rw [addf_apply, addf_apply, broadcastTo_1b_ab_apply]

end Cert.Gin.Kern

end
-- ==== Proof.KReg0.lean ====
/-
  REGION 0 (the first projection), AS ONE FUNCTION OF THE ARRAYS IT FINDS.

  The region tiles its [100000,128] input and its [100000,32] output by rows, twenty tiles of 5000, and keeps the
  [128,32] weights whole at every point. Point t's block of a row-tiled array is rows 5000·t … 5000·t + 4999, and
  its block of the weights is the whole matrix; so what point t writes back is rows 5000·t … of the product of the
  two arrays, and the twenty blocks cover the output: the output array ends as the product.
-/
import proofs.«120293_j27908697489545_2_alg».proof.Proof.Gen.KernelIdeal.Frame
import proofs.«120293_j27908697489545_2_alg».proof.Proof.KPay
import proofs.«120293_j27908697489545_2_alg».proof.Proof.Spec
import Idealize.ShloMosaic.Lib.Pipeline.Value

set_option maxRecDepth 16384

noncomputable section

open scoped BigOperators

namespace Cert.KernelIdeal.Hand

open Cert.KernelIdeal Cert.KernelIdeal.Gen Cert.Gin Cert.Gin.Kern
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

variable (V : (c : Dev nD) → (b : Ref sig .tc) → Buf (Elt Ideal) ((c : Thread nD τ).loc b))

/-- The product of a [100000,128] array with [128,32] weights, as an array. -/
def G0 (A : S100000x128.Idx → EReal) (Wt : S128x32.Idx → EReal) : S100000x32.Idx → EReal :=
  fun i => mm (mat A) (mat Wt) (i 0) (i 1)

/-- The printed index maps over the twenty points: a row-tiled window is at block row t, a resident one at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's result at a block entry, from what the blocks hold in terms of the arrays. -/
theorem blk_eq0 (x0 : Vec Ideal S5000x128 .f32) (x1 : Vec Ideal S128x32 .f32) (A : S100000x128.Idx → EReal)
    (Wt : S128x32.Idx → EReal) (y : S5000x32.Idx) (i : S100000x32.Idx)
    (h0 : ∀ k : Fin 128, x0 (ix2 (y 0) k) = A (ix2 (i 0) k)) (h1 : ∀ k : Fin 128, x1 (ix2 k (y 1)) = Wt (ix2 k (i 1))) :
    k0_pay1 (F := Ideal) x0 x1 y = G0 A Wt i := by
  obtain ⟨p, j, rfl⟩ : ∃ (p : Fin 5000) (j : Fin 32), y = ix2 p j := ⟨y 0, y 1, eq_ix2 y⟩
  rw [pay0]
  unfold G0 mm mat
  exact Finset.sum_congr rfl fun k _ => by rw [h0 k, h1 k]

/-- WHAT POINT t WRITES BACK is block t of the product of the two arrays as the region finds them. -/
theorem flushed0 (c : Dev nD) (t : Fin cfg0.N) :
    (dat0 (F := Ideal) V c).flushed 2 t
      = ((cfg0.win 2).blk t).view.read (Elt Ideal) (G0 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x32) hz]
  obtain ⟨e00, e01, e10, e11, e20, e21⟩ := idx_facts0 t
  funext y
  show k0_pay1 (F := Ideal) (iblk0 V c 0 t) (iblk0 V c 1 t) y = G0 _ _ (((cfg0.win 2).blk t).view.emb y)
  refine blk_eq0 _ _ _ _ y _ (fun k => ?_) (fun k => ?_)
  · unfold iblk0
    rw [View.read_apply]
    refine congrArg (V c (Pipeline.arrRef spec0 0)) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  · unfold iblk0
    rw [View.read_apply]
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 32 + 1 * (y 1).val = win0_2.index t (1 : Fin 2) * 32 + 1 * (y 1).val; omega

/-- Every row of the output lies in the block of the point its row number divided by 5000 names. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_2 t, ?_⟩
  obtain ⟨e00, e01, e10, e11, e20, e21⟩ := idx_facts0 t
  show i ∈ ((View.whole main_v4).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [e20, ht]; omega
  | ⟨1, _⟩ =>
    show win0_2.index t (1 : Fin 2) * 32 ≤ (i 1).val ∧ (i 1).val < win0_2.index t (1 : Fin 2) * 32 + 32
    rw [e21]; omega

/-- THE OUTPUT ARRAY after region 0: the product of the two arrays the region found. -/
theorem value0 (c : Dev nD) :
    (dat0 (F := Ideal) V c).arrAt 2 cfg0.N = G0 (V c (Pipeline.arrRef spec0 0)) (V c (Pipeline.arrRef spec0 1)) :=
  (dat0 (F := Ideal) V c).arrAt_eq_of_cover 2 _ (fun t _ => flushed0 V c t) cover0

/-! ## What the other five regions compute, as functions of the arrays they find -/

/-- An epilogue: relu of (own + neighbour sum + first bias row), times the [32,32] weights, plus the second bias row. -/
def G1 (P A : S100000x32.Idx → EReal) (Ba : S1x32.Idx → EReal) (Wb : S32x32.Idx → EReal) (Bb : S1x32.Idx → EReal) :
    S100000x32.Idx → EReal :=
  fun i => (∑ k : Fin 32, max ((P (ix2 (i 0) k) + A (ix2 (i 0) k)) + Ba (ix2 (0 : Fin 1) k)) 0 * Wb (ix2 k (i 1)))
    + Bb (ix2 (0 : Fin 1) (i 1))

/-- The product of a [100000,32] array with [32,32] weights. -/
def G2 (A : S100000x32.Idx → EReal) (Wt : S32x32.Idx → EReal) : S100000x32.Idx → EReal :=
  fun i => mm (mat A) (mat Wt) (i 0) (i 1)

/-- The product of a [100000,32] array with [32,1] weights. -/
def G4 (A : S100000x32.Idx → EReal) (Wt : S32x1.Idx → EReal) : S100000x1.Idx → EReal :=
  fun i => mm (mat A) (mat Wt) (i 0) (i 1)

/-- The last step: own + neighbour sum + the one bias. -/
def G5 (Q A : S100000x1.Idx → EReal) (B : S1x1.Idx → EReal) : S100000x1.Idx → EReal :=
  fun i => (Q i + A i) + B (ix2 (0 : Fin 1) (i 1))

end Cert.KernelIdeal.Hand

end
-- ==== Proof.KReg1.lean ====
/-
  REGION 1 (the first epilogue), AS ONE FUNCTION OF THE ARRAYS IT FINDS.

  The region tiles two [100000,32] inputs (a node's own term and its neighbour sum) and its [100000,32] output by rows,
  twenty tiles of 5000, and keeps two [1,32] bias rows and the [32,32] weights whole at every point. Point t's block of
  a row-tiled array is rows 5000·t … 5000·t + 4999 and its block of a resident array is the whole array; so what point
  t writes back is rows 5000·t … of
      relu (own + neighbour sum + first bias row) · weights + second bias row
  of the five arrays, and the twenty blocks cover the output: the output array ends as that function of them.
-/
import proofs.«120293_j27908697489545_2_alg».proof.Proof.Gen.KernelIdeal.Frame
import proofs.«120293_j27908697489545_2_alg».proof.Proof.KPay
import proofs.«120293_j27908697489545_2_alg».proof.Proof.Spec
import proofs.«120293_j27908697489545_2_alg».proof.Proof.KReg0
import Idealize.ShloMosaic.Lib.Pipeline.Value

set_option maxRecDepth 16384

noncomputable section

open scoped BigOperators

namespace Cert.KernelIdeal.Hand

open Cert.KernelIdeal Cert.KernelIdeal.Gen Cert.Gin Cert.Gin.Kern
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the twenty points: a row-tiled window is at block row t, a resident one at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's result at a block entry, from what the blocks hold in terms of the arrays. -/
theorem blk_eq1 (x0 x1 : Vec Ideal S5000x32 .f32) (x2 : Vec Ideal S1x32 .f32) (x3 : Vec Ideal S32x32 .f32)
    (x4 : Vec Ideal S1x32 .f32) (P A : S100000x32.Idx → EReal) (Ba : S1x32.Idx → EReal) (Wb : S32x32.Idx → EReal)
    (Bb : S1x32.Idx → EReal) (y : S5000x32.Idx) (i : S100000x32.Idx)
    (h0 : ∀ k : Fin 32, x0 (ix2 (y 0) k) = P (ix2 (i 0) k)) (h1 : ∀ k : Fin 32, x1 (ix2 (y 0) k) = A (ix2 (i 0) k))
    (h2 : ∀ k : Fin 32, x2 (ix2 (0 : Fin 1) k) = Ba (ix2 (0 : Fin 1) k))
    (h3 : ∀ k : Fin 32, x3 (ix2 k (y 1)) = Wb (ix2 k (i 1)))
    (h4 : x4 (ix2 (0 : Fin 1) (y 1)) = Bb (ix2 (0 : Fin 1) (i 1))) :
    k1_pay1 (F := Ideal) x0 x1 x2 x3 x4 y = G1 P A Ba Wb Bb i := by
  obtain ⟨p, j, rfl⟩ : ∃ (p : Fin 5000) (j : Fin 32), y = ix2 p j := ⟨y 0, y 1, eq_ix2 y⟩
  rw [pay1]
  unfold G1
  congr 1
  exact Finset.sum_congr rfl fun k _ => by rw [h0 k, h1 k, h2 k, h3 k]

/-- WHAT POINT t WRITES BACK is block t of the epilogue of the five arrays as the region finds them. -/
theorem flushed1 (c : Dev nD) (t : Fin cfg1.N) :
    (dat1 (F := Ideal) V c).flushed 5 t
      = ((cfg1.win 5).blk t).view.read (Elt Ideal) (G1 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S5000x32) hz, View.ld_unit_zero (S := S1x32) hz, View.ld_unit_zero (S := S32x32) hz]
  obtain ⟨e00, e01, e10, e11, e20, e21, e30, e31, e40, e41, e50, e51⟩ := idx_facts1 t
  funext y
  show k1_pay1 (F := Ideal) (iblk1 V c 0 t) (iblk1 V c 1 t) (iblk1 V c 2 t) (iblk1 V c 3 t) (iblk1 V c 4 t) y
    = G1 _ _ _ _ _ (((cfg1.win 5).blk t).view.emb y)
  refine blk_eq1 _ _ _ _ _ _ _ _ _ _ y _ (fun k => ?_) (fun k => ?_) (fun k => ?_) (fun k => ?_) ?_
  · unfold iblk1
    rw [View.read_apply]
    refine congrArg (V c (Pipeline.arrRef spec1 0)) (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 32 + 1 * k.val = k.val; omega
  · unfold iblk1
    rw [View.read_apply]
    refine congrArg (V c (Pipeline.arrRef spec1 1)) (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 32 + 1 * k.val = k.val; omega
  · unfold iblk1
    rw [View.read_apply]
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 32 + 1 * k.val = k.val; omega
  · unfold iblk1
    rw [View.read_apply]
    refine congrArg (V c (Pipeline.arrRef spec1 3)) (funext fun a => Fin.ext ?_)
    match a with
    | ⟨0, _⟩ => show win1_3.index t (0 : Fin 2) * 32 + 1 * k.val = k.val; omega
    | ⟨1, _⟩ => show win1_3.index t (1 : Fin 2) * 32 + 1 * (y 1).val = win1_5.index t (1 : Fin 2) * 32 + 1 * (y 1).val; omega
  · unfold iblk1
    rw [View.read_apply]
    refine congrArg (V c (Pipeline.arrRef spec1 4)) (funext fun a => Fin.ext ?_)
    match a with
    | ⟨0, _⟩ => show win1_4.index t (0 : Fin 2) * 1 + 1 * 0 = 0; omega
    | ⟨1, _⟩ => show win1_4.index t (1 : Fin 2) * 32 + 1 * (y 1).val = win1_5.index t (1 : Fin 2) * 32 + 1 * (y 1).val; omega

/-- Every row of the output lies in the block of the point its row number divided by 5000 names. -/
theorem cover1 (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_5 t, ?_⟩
  obtain ⟨e00, e01, e10, e11, e20, e21, e30, e31, e40, e41, e50, e51⟩ := idx_facts1 t
  show i ∈ ((View.whole main_v17).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e50, ht]; omega
  | ⟨1, _⟩ =>
    show win1_5.index t (1 : Fin 2) * 32 ≤ (i 1).val ∧ (i 1).val < win1_5.index t (1 : Fin 2) * 32 + 32
    rw [e51]; omega

/-- THE OUTPUT ARRAY after region 1: the epilogue of the five arrays the region found. -/
theorem value1 (c : Dev nD) :
    (dat1 (F := Ideal) V c).arrAt 5 cfg1.N = G1 (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed1 V c t) cover1

end Cert.KernelIdeal.Hand

end
-- ==== Proof.KReg2.lean ====
/-
  REGION 2 (the second projection), AS ONE FUNCTION OF THE ARRAYS IT FINDS.

  The region tiles its [100000,32] input and its [100000,32] output by rows, twenty tiles of 5000, and keeps the
  [32,32] weights whole at every point. Point t's block of a row-tiled array is rows 5000·t … 5000·t + 4999, and
  its block of the weights is the whole matrix; so what point t writes back is rows 5000·t … of the product of the
  two arrays, and the twenty blocks cover the output: the output array ends as the product.
-/
import proofs.«120293_j27908697489545_2_alg».proof.Proof.Gen.KernelIdeal.Frame
import proofs.«120293_j27908697489545_2_alg».proof.Proof.KPay
import proofs.«120293_j27908697489545_2_alg».proof.Proof.Spec
import proofs.«120293_j27908697489545_2_alg».proof.Proof.KReg0
import Idealize.ShloMosaic.Lib.Pipeline.Value

set_option maxRecDepth 16384

noncomputable section

open scoped BigOperators

namespace Cert.KernelIdeal.Hand

open Cert.KernelIdeal Cert.KernelIdeal.Gen Cert.Gin Cert.Gin.Kern
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the twenty points: a row-tiled window is at block row t, a resident one at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's result at a block entry, from what the blocks hold in terms of the arrays. -/
theorem blk_eq2 (x0 : Vec Ideal S5000x32 .f32) (x1 : Vec Ideal S32x32 .f32) (A : S100000x32.Idx → EReal)
    (Wt : S32x32.Idx → EReal) (y : S5000x32.Idx) (i : S100000x32.Idx)
    (h0 : ∀ k : Fin 32, x0 (ix2 (y 0) k) = A (ix2 (i 0) k)) (h1 : ∀ k : Fin 32, x1 (ix2 k (y 1)) = Wt (ix2 k (i 1))) :
    k2_pay1 (F := Ideal) x0 x1 y = G2 A Wt i := by
  obtain ⟨p, j, rfl⟩ : ∃ (p : Fin 5000) (j : Fin 32), y = ix2 p j := ⟨y 0, y 1, eq_ix2 y⟩
  rw [pay2]
  unfold G2 mm mat
  exact Finset.sum_congr rfl fun k _ => by rw [h0 k, h1 k]

/-- WHAT POINT t WRITES BACK is block t of the product of the two arrays as the region finds them. -/
theorem flushed2 (c : Dev nD) (t : Fin cfg2.N) :
    (dat2 (F := Ideal) V c).flushed 2 t
      = ((cfg2.win 2).blk t).view.read (Elt Ideal) (G2 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x32) hz, View.ld_unit_zero (S := S32x32) hz]
  obtain ⟨e00, e01, e10, e11, e20, e21⟩ := idx_facts2 t
  funext y
  show k2_pay1 (F := Ideal) (iblk2 V c 0 t) (iblk2 V c 1 t) y = G2 _ _ (((cfg2.win 2).blk t).view.emb y)
  refine blk_eq2 _ _ _ _ y _ (fun k => ?_) (fun k => ?_)
  · unfold iblk2
    rw [View.read_apply]
    refine congrArg (V c (Pipeline.arrRef spec2 0)) (funext fun a => Fin.ext ?_)
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 32 + 1 * k.val = k.val; omega
  · unfold iblk2
    rw [View.read_apply]
    refine congrArg (V c (Pipeline.arrRef spec2 1)) (funext fun a => Fin.ext ?_)
    match a with
    | ⟨0, _⟩ => show win2_1.index t (0 : Fin 2) * 32 + 1 * k.val = k.val; omega
    | ⟨1, _⟩ => show win2_1.index t (1 : Fin 2) * 32 + 1 * (y 1).val = win2_2.index t (1 : Fin 2) * 32 + 1 * (y 1).val; omega

/-- Every row of the output lies in the block of the point its row number divided by 5000 names. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_2 t, ?_⟩
  obtain ⟨e00, e01, e10, e11, e20, e21⟩ := idx_facts2 t
  show i ∈ ((View.whole main_v18).slice (win2_2.rect t)).set
  rw [View.set_slice_whole, Rect.mem_set_unit]
  intro a
  match a with
  | ⟨0, _⟩ =>
    show win2_2.index t (0 : Fin 2) * 5000 ≤ (i 0).val ∧ (i 0).val < win2_2.index t (0 : Fin 2) * 5000 + 5000
    rw [e20, ht]; omega
  | ⟨1, _⟩ =>
    show win2_2.index t (1 : Fin 2) * 32 ≤ (i 1).val ∧ (i 1).val < win2_2.index t (1 : Fin 2) * 32 + 32
    rw [e21]; omega

/-- THE OUTPUT ARRAY after region 2: the product of the two arrays the region found. -/
theorem value2 (c : Dev nD) :
    (dat2 (F := Ideal) V c).arrAt 2 cfg2.N = G2 (V c (Pipeline.arrRef spec2 0)) (V c (Pipeline.arrRef spec2 1)) :=
  (dat2 (F := Ideal) V c).arrAt_eq_of_cover 2 _ (fun t _ => flushed2 V c t) cover2

end Cert.KernelIdeal.Hand

end
-- ==== Proof.KReg3.lean ====
/-
  REGION 3 (the second epilogue), AS ONE FUNCTION OF THE ARRAYS IT FINDS.

  The region tiles two [100000,32] inputs (a node's own term and its neighbour sum) and its [100000,32] output by rows,
  twenty tiles of 5000, and keeps two [1,32] bias rows and the [32,32] weights whole at every point. Point t's block of
  a row-tiled array is rows 5000·t … 5000·t + 4999 and its block of a resident array is the whole array; so what point
  t writes back is rows 5000·t … of
      relu (own + neighbour sum + first bias row) · weights + second bias row
  of the five arrays, and the twenty blocks cover the output: the output array ends as that function of them.
-/
import proofs.«120293_j27908697489545_2_alg».proof.Proof.Gen.KernelIdeal.Frame
import proofs.«120293_j27908697489545_2_alg».proof.Proof.KPay
import proofs.«120293_j27908697489545_2_alg».proof.Proof.Spec
import proofs.«120293_j27908697489545_2_alg».proof.Proof.KReg0
import Idealize.ShloMosaic.Lib.Pipeline.Value

set_option maxRecDepth 16384

noncomputable section

open scoped BigOperators

namespace Cert.KernelIdeal.Hand

open Cert.KernelIdeal Cert.KernelIdeal.Gen Cert.Gin Cert.Gin.Kern
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the twenty points: a row-tiled window is at block row t, a resident one at block 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The body's result at a block entry, from what the blocks hold in terms of the arrays. -/
theorem blk_eq3 (x0 x1 : Vec Ideal S5000x32 .f32) (x2 : Vec Ideal S1x32 .f32) (x3 : Vec Ideal S32x32 .f32)
    (x4 : Vec Ideal S1x32 .f32) (P A : S100000x32.Idx → EReal) (Ba : S1x32.Idx → EReal) (Wb : S32x32.Idx → EReal)
    (Bb : S1x32.Idx → EReal) (y : S5000x32.Idx) (i : S100000x32.Idx)
    (h0 : ∀ k : Fin 32, x0 (ix2 (y 0) k) = P (ix2 (i 0) k)) (h1 : ∀ k : Fin 32, x1 (ix2 (y 0) k) = A (ix2 (i 0) k))
    (h2 : ∀ k : Fin 32, x2 (ix2 (0 : Fin 1) k) = Ba (ix2 (0 : Fin 1) k))
    (h3 : ∀ k : Fin 32, x3 (ix2 k (y 1)) = Wb (ix2 k (i 1)))
    (h4 : x4 (ix2 (0 : Fin 1) (y 1)) = Bb (ix2 (0 : Fin 1) (i 1))) :
    k3_pay1 (F := Ideal) x0 x1 x2 x3 x4 y = G1 P A Ba Wb Bb i := by
  obtain ⟨p, j, rfl⟩ : ∃ (p : Fin 5000) (j : Fin 32), y = ix2 p j := ⟨y 0, y 1, eq_ix2 y⟩
  rw [pay3]
  unfold G1
  congr 1
  exact Finset.sum_congr rfl fun k _ => by rw [h0 k, h1 k, h2 k, h3 k]

set_option maxHeartbeats 1000000 in
/-- WHAT POINT t WRITES BACK is block t of the epilogue of the five arrays as the region finds them. -/
theorem flushed3 (c : Dev nD) (t : Fin cfg3.N) :
    (dat3 (F := Ideal) V c).flushed 5 t
      = ((cfg3.win 5).blk t).view.read (Elt Ideal) (G1 (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S5000x32) hz, View.ld_unit_zero (S := S1x32) hz, View.ld_unit_zero (S := S32x32) hz]
  obtain ⟨e00, e01, e10, e11, e20, e21, e30, e31, e40, e41, e50, e51⟩ := idx_facts3 t
  funext y
  show k3_pay1 (F := Ideal) (iblk3 V c 0 t) (iblk3 V c 1 t) (iblk3 V c 2 t) (iblk3 V c 3 t) (iblk3 V c 4 t) y
    = G1 _ _ _ _ _ (((cfg3.win 5).blk t).view.emb y)
  refine blk_eq3 _ _ _ _ _ _ _ _ _ _ y _ (fun k => ?_) (fun k => ?_) (fun k => ?_) (fun k => ?_) ?_
  · unfold iblk3
    rw [View.read_apply]
    refine congrArg (V c (Pipeline.arrRef spec3 0)) (funext fun a => Fin.ext ?_)
    match a with
    | ⟨0, _⟩ => show win3_0.index t (0 : Fin 2) * 5000 + 1 * (y 0).val = win3_5.index t (0 : Fin 2) * 5000 + 1 * (y 0).val; omega
    | ⟨1, _⟩ => show win3_0.index t (1 : Fin 2) * 32 + 1 * k.val = k.val; omega
  · unfold iblk3
    rw [View.read_apply]
    refine congrArg (V c (Pipeline.arrRef spec3 1)) (funext fun a => Fin.ext ?_)
    match a with
    | ⟨0, _⟩ => show win3_1.index t (0 : Fin 2) * 5000 + 1 * (y 0).val = win3_5.index t (0 : Fin 2) * 5000 + 1 * (y 0).val; omega
    | ⟨1, _⟩ => show win3_1.index t (1 : Fin 2) * 32 + 1 * k.val = k.val; omega
  · unfold iblk3
    rw [View.read_apply]
    refine congrArg (V c (Pipeline.arrRef spec3 2)) (funext fun a => Fin.ext ?_)
    match a with
    | ⟨0, _⟩ => show win3_2.index t (0 : Fin 2) * 1 + 1 * 0 = 0; omega
    | ⟨1, _⟩ => show win3_2.index t (1 : Fin 2) * 32 + 1 * k.val = k.val; omega
  · unfold iblk3
    rw [View.read_apply]
    refine congrArg (V c (Pipeline.arrRef spec3 3)) (funext fun a => Fin.ext ?_)
    match a with
    | ⟨0, _⟩ => show win3_3.index t (0 : Fin 2) * 32 + 1 * k.val = k.val; omega
    | ⟨1, _⟩ => show win3_3.index t (1 : Fin 2) * 32 + 1 * (y 1).val = win3_5.index t (1 : Fin 2) * 32 + 1 * (y 1).val; omega
  · unfold iblk3
    rw [View.read_apply]
    refine congrArg (V c (Pipeline.arrRef spec3 4)) (funext fun a => Fin.ext ?_)
    match a with
    | ⟨0, _⟩ => show win3_4.index t (0 : Fin 2) * 1 + 1 * 0 = 0; omega
    | ⟨1, _⟩ => show win3_4.index t (1 : Fin 2) * 32 + 1 * (y 1).val = win3_5.index t (1 : Fin 2) * 32 + 1 * (y 1).val; omega

/-- Every row of the output lies in the block of the point its row number divided by 5000 names. -/
theorem cover3 (i : S100000x32.Idx) : ∃ t : Fin cfg3.N, (cfg3.win 5).flush t = true ∧ i ∈ ((cfg3.win 5).blk t).view.set := by
  have hi0 : (i 0).val < 100000 := (i 0).isLt
  have hi1 : (i 1).val < 32 := (i 1).isLt
  have hN : cfg3.N = 20 := N_3
  obtain ⟨t, ht⟩ : ∃ t : Fin cfg3.N, t.val = (i 0).val / 5000 := ⟨⟨(i 0).val / 5000, by rw [hN]; omega⟩, rfl⟩
  refine ⟨t, flush3_5 t, ?_⟩
  obtain ⟨e00, e01, e10, e11, e20, e21, e30, e31, e40, e41, e50, e51⟩ := idx_facts3 t
  show i ∈ ((View.whole main_v31).slice (win3_5.rect t)).set
  rw [View.set_slice_whole, Rect.mem_set_unit]
  intro a
  match a with
  | ⟨0, _⟩ =>
    show win3_5.index t (0 : Fin 2) * 5000 ≤ (i 0).val ∧ (i 0).val < win3_5.index t (0 : Fin 2) * 5000 + 5000
    rw [e50, ht]; omega
  | ⟨1, _⟩ =>
    show win3_5.index t (1 : Fin 2) * 32 ≤ (i 1).val ∧ (i 1).val < win3_5.index t (1 : Fin 2) * 32 + 32
    rw [e51]; omega

/-- THE OUTPUT ARRAY after region 3: the epilogue of the five arrays the region found. -/
theorem value3 (c : Dev nD) :
    (dat3 (F := Ideal) V c).arrAt 5 cfg3.N = G1 (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 5 _ (fun t _ => flushed3 V c t) cover3

end Cert.KernelIdeal.Hand

end
-- ==== Proof.KReg4.lean ====
/-
  REGION 4 (the third projection), AS ONE FUNCTION OF THE ARRAYS IT FINDS.

  The region tiles its [100000,32] input and its [100000,1] output by rows, twenty tiles of 5000, and keeps the
  [32,1] weights whole at every point. Point t's block of a row-tiled array is rows 5000·t … 5000·t + 4999, and
  its block of the weights is the whole matrix; so what point t writes back is rows 5000·t … of the product of the
  two arrays, and the twenty blocks cover the output: the output array ends as the product.
-/
import proofs.«120293_j27908697489545_2_alg».proof.Proof.Gen.KernelIdeal.Frame
import proofs.«120293_j27908697489545_2_alg».proof.Proof.KPay
import proofs.«120293_j27908697489545_2_alg».proof.Proof.Spec
import proofs.«120293_j27908697489545_2_alg».proof.Proof.KReg0
import Idealize.ShloMosaic.Lib.Pipeline.Value

set_option maxRecDepth 16384

noncomputable section

open scoped BigOperators

namespace Cert.KernelIdeal.Hand

open Cert.KernelIdeal Cert.KernelIdeal.Gen Cert.Gin Cert.Gin.Kern
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the twenty points: a row-tiled window is at block row t, a resident one at block 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's result at a block entry, from what the blocks hold in terms of the arrays. -/
theorem blk_eq4 (x0 : Vec Ideal S5000x32 .f32) (x1 : Vec Ideal S32x1 .f32) (A : S100000x32.Idx → EReal)
    (Wt : S32x1.Idx → EReal) (y : S5000x1.Idx) (i : S100000x1.Idx)
    (h0 : ∀ k : Fin 32, x0 (ix2 (y 0) k) = A (ix2 (i 0) k)) (h1 : ∀ k : Fin 32, x1 (ix2 k (y 1)) = Wt (ix2 k (i 1))) :
    k4_pay1 (F := Ideal) x0 x1 y = G4 A Wt i := by
  obtain ⟨p, j, rfl⟩ : ∃ (p : Fin 5000) (j : Fin 1), y = ix2 p j := ⟨y 0, y 1, eq_ix2 y⟩
  rw [pay4]
  unfold G4 mm mat
  exact Finset.sum_congr rfl fun k _ => by rw [h0 k, h1 k]

/-- WHAT POINT t WRITES BACK is block t of the product of the two arrays as the region finds them. -/
theorem flushed4 (c : Dev nD) (t : Fin cfg4.N) :
    (dat4 (F := Ideal) V c).flushed 2 t
      = ((cfg4.win 2).blk t).view.read (Elt Ideal) (G4 (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S5000x32) hz, View.ld_unit_zero (S := S32x1) hz]
  obtain ⟨e00, e01, e10, e11, e20, e21⟩ := idx_facts4 t
  funext y
  show k4_pay1 (F := Ideal) (iblk4 V c 0 t) (iblk4 V c 1 t) y = G4 _ _ (((cfg4.win 2).blk t).view.emb y)
  refine blk_eq4 _ _ _ _ y _ (fun k => ?_) (fun k => ?_)
  · unfold iblk4
    rw [View.read_apply]
    refine congrArg (V c (Pipeline.arrRef spec4 0)) (funext fun a => Fin.ext ?_)
    match a with
    | ⟨0, _⟩ => show win4_0.index t (0 : Fin 2) * 5000 + 1 * (y 0).val = win4_2.index t (0 : Fin 2) * 5000 + 1 * (y 0).val; omega
    | ⟨1, _⟩ => show win4_0.index t (1 : Fin 2) * 32 + 1 * k.val = k.val; omega
  · unfold iblk4
    rw [View.read_apply]
    refine congrArg (V c (Pipeline.arrRef spec4 1)) (funext fun a => Fin.ext ?_)
    match a with
    | ⟨0, _⟩ => show win4_1.index t (0 : Fin 2) * 32 + 1 * k.val = k.val; omega
    | ⟨1, _⟩ => show win4_1.index t (1 : Fin 2) * 1 + 1 * (y 1).val = win4_2.index t (1 : Fin 2) * 1 + 1 * (y 1).val; omega

/-- Every row of the output lies in the block of the point its row number divided by 5000 names. -/
theorem cover4 (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 20 := N_4
  obtain ⟨t, ht⟩ : ∃ t : Fin cfg4.N, t.val = (i 0).val / 5000 := ⟨⟨(i 0).val / 5000, by rw [hN]; omega⟩, rfl⟩
  refine ⟨t, flush4_2 t, ?_⟩
  obtain ⟨e00, e01, e10, e11, e20, e21⟩ := idx_facts4 t
  show i ∈ ((View.whole main_v32).slice (win4_2.rect t)).set
  rw [View.set_slice_whole, Rect.mem_set_unit]
  intro a
  match a with
  | ⟨0, _⟩ =>
    show win4_2.index t (0 : Fin 2) * 5000 ≤ (i 0).val ∧ (i 0).val < win4_2.index t (0 : Fin 2) * 5000 + 5000
    rw [e20, ht]; omega
  | ⟨1, _⟩ =>
    show win4_2.index t (1 : Fin 2) * 1 ≤ (i 1).val ∧ (i 1).val < win4_2.index t (1 : Fin 2) * 1 + 1
    rw [e21]; omega

/-- THE OUTPUT ARRAY after region 4: the product of the two arrays the region found. -/
theorem value4 (c : Dev nD) :
    (dat4 (F := Ideal) V c).arrAt 2 cfg4.N = G4 (V c (Pipeline.arrRef spec4 0)) (V c (Pipeline.arrRef spec4 1)) :=
  (dat4 (F := Ideal) V c).arrAt_eq_of_cover 2 _ (fun t _ => flushed4 V c t) cover4

end Cert.KernelIdeal.Hand

end
-- ==== Proof.KReg5.lean ====
/-
  REGION 5 (the last step), AS ONE FUNCTION OF THE ARRAYS IT FINDS.

  The region tiles two [100000,1] inputs (a node's own term and its neighbour sum) and its [100000,1] output by rows,
  twenty tiles of 5000, and keeps the one [1,1] bias whole at every point. Point t's block of a row-tiled array is rows
  5000·t … 5000·t + 4999 and its block of the bias is the bias; so what point t writes back is rows 5000·t … of
      own + neighbour sum + bias
  of the three arrays, and the twenty blocks cover the output: the output array ends as that function of them.
-/
import proofs.«120293_j27908697489545_2_alg».proof.Proof.Gen.KernelIdeal.Frame
import proofs.«120293_j27908697489545_2_alg».proof.Proof.KPay
import proofs.«120293_j27908697489545_2_alg».proof.Proof.Spec
import proofs.«120293_j27908697489545_2_alg».proof.Proof.KReg0
import Idealize.ShloMosaic.Lib.Pipeline.Value

set_option maxRecDepth 16384

noncomputable section

open scoped BigOperators

namespace Cert.KernelIdeal.Hand

open Cert.KernelIdeal Cert.KernelIdeal.Gen Cert.Gin Cert.Gin.Kern
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the twenty points: a row-tiled window is at block row t, a resident one at block 0. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The body's result at a block entry, from what the blocks hold in terms of the arrays. -/
theorem blk_eq5 (x0 x1 : Vec Ideal S5000x1 .f32) (x2 : Vec Ideal S1x1 .f32) (Q A : S100000x1.Idx → EReal)
    (B : S1x1.Idx → EReal) (y : S5000x1.Idx) (i : S100000x1.Idx)
    (h0 : x0 y = Q i) (h1 : x1 y = A i)
    (h2 : x2 (ix2 (0 : Fin 1) (y 1)) = B (ix2 (0 : Fin 1) (i 1))) :
    k5_pay1 (F := Ideal) x0 x1 x2 y = G5 Q A B i := by
  obtain ⟨p, u, rfl⟩ : ∃ (p : Fin 5000) (u : Fin 1), y = ix2 p u := ⟨y 0, y 1, eq_ix2 y⟩
  have h2' : x2 (ix2 (0 : Fin 1) u) = B (ix2 (0 : Fin 1) (i 1)) := h2
  rw [pay5]
  unfold G5
  rw [h0, h1, h2']

/-- WHAT POINT t WRITES BACK is block t of the last step of the three arrays as the region finds them. -/
theorem flushed5 (c : Dev nD) (t : Fin cfg5.N) :
    (dat5 (F := Ideal) V c).flushed 3 t
      = ((cfg5.win 3).blk t).view.read (Elt Ideal) (G5 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S5000x1) hz, View.ld_unit_zero (S := S1x1) hz]
  obtain ⟨e00, e01, e10, e11, e20, e21, e30, e31⟩ := idx_facts5 t
  funext y
  show k5_pay1 (F := Ideal) (iblk5 V c 0 t) (iblk5 V c 1 t) (iblk5 V c 2 t) y = G5 _ _ _ (((cfg5.win 3).blk t).view.emb y)
  refine blk_eq5 _ _ _ _ _ _ y _ ?_ ?_ ?_
  · unfold iblk5
    rw [View.read_apply]
    refine congrArg (V c (Pipeline.arrRef spec5 0)) (funext fun a => Fin.ext ?_)
    match a with
    | ⟨0, _⟩ => show win5_0.index t (0 : Fin 2) * 5000 + 1 * (y 0).val = win5_3.index t (0 : Fin 2) * 5000 + 1 * (y 0).val; omega
    | ⟨1, _⟩ => show win5_0.index t (1 : Fin 2) * 1 + 1 * (y 1).val = win5_3.index t (1 : Fin 2) * 1 + 1 * (y 1).val; omega
  · unfold iblk5
    rw [View.read_apply]
    refine congrArg (V c (Pipeline.arrRef spec5 1)) (funext fun a => Fin.ext ?_)
    match a with
    | ⟨0, _⟩ => show win5_1.index t (0 : Fin 2) * 5000 + 1 * (y 0).val = win5_3.index t (0 : Fin 2) * 5000 + 1 * (y 0).val; omega
    | ⟨1, _⟩ => show win5_1.index t (1 : Fin 2) * 1 + 1 * (y 1).val = win5_3.index t (1 : Fin 2) * 1 + 1 * (y 1).val; omega
  · unfold iblk5
    rw [View.read_apply]
    refine congrArg (V c (Pipeline.arrRef spec5 2)) (funext fun a => Fin.ext ?_)
    match a with
    | ⟨0, _⟩ => show win5_2.index t (0 : Fin 2) * 1 + 1 * 0 = 0; omega
    | ⟨1, _⟩ => show win5_2.index t (1 : Fin 2) * 1 + 1 * (y 1).val = win5_3.index t (1 : Fin 2) * 1 + 1 * (y 1).val; omega

/-- Every row of the output lies in the block of the point its row number divided by 5000 names. -/
theorem cover5 (i : S100000x1.Idx) : ∃ t : Fin cfg5.N, (cfg5.win 3).flush t = true ∧ i ∈ ((cfg5.win 3).blk t).view.set := by
  have hi0 : (i 0).val < 100000 := (i 0).isLt
  have hi1 : (i 1).val < 1 := (i 1).isLt
  have hN : cfg5.N = 20 := N_5
  obtain ⟨t, ht⟩ : ∃ t : Fin cfg5.N, t.val = (i 0).val / 5000 := ⟨⟨(i 0).val / 5000, by rw [hN]; omega⟩, rfl⟩
  refine ⟨t, flush5_3 t, ?_⟩
  obtain ⟨e00, e01, e10, e11, e20, e21, e30, e31⟩ := idx_facts5 t
  show i ∈ ((View.whole main_v44).slice (win5_3.rect t)).set
  rw [View.set_slice_whole, Rect.mem_set_unit]
  intro a
  match a with
  | ⟨0, _⟩ =>
    show win5_3.index t (0 : Fin 2) * 5000 ≤ (i 0).val ∧ (i 0).val < win5_3.index t (0 : Fin 2) * 5000 + 5000
    rw [e30, ht]; omega
  | ⟨1, _⟩ =>
    show win5_3.index t (1 : Fin 2) * 1 ≤ (i 1).val ∧ (i 1).val < win5_3.index t (1 : Fin 2) * 1 + 1
    rw [e31]; omega

/-- THE OUTPUT ARRAY after region 5: own + neighbour sum + bias of the three arrays the region found. -/
theorem value5 (c : Dev nD) :
    (dat5 (F := Ideal) V c).arrAt 3 cfg5.N = G5 (V c (Pipeline.arrRef spec5 0)) (V c (Pipeline.arrRef spec5 1)) (V c (Pipeline.arrRef spec5 2)) :=
  (dat5 (F := Ideal) V c).arrAt_eq_of_cover 3 _ (fun t _ => flushed5 V c t) cover5

end Cert.KernelIdeal.Hand

end
-- ==== Proof.KStage.lean ====
/-
  THE KERNEL PROGRAM'S RESULT AS ONE TERM OF ITS ARGUMENTS.

  Walking the ten segments in order, each result buffer is named as a function of the launch memory:
    P1 = x · W1a                                   (region 0)
    A1 = the neighbour sum of P1                   (host)
    H1 = relu ((P1 + A1) + b1a) · W1b + b1b        (region 1)
    P2 = H1 · W2a                                  (region 2)
    A2 = the neighbour sum of P2                   (host)
    H2 = relu ((P2 + A2) + b2a) · W2b + b2b        (region 3)
    Q  = H2 · w3                                   (region 4)
    A3 = the neighbour sum of Q                    (host)
    out = (Q + A3) + b3                            (region 5).
  A region's output array is the region's function of the arrays it finds at its entry; an array it finds is either an
  argument (unchanged since the launch), the result of an earlier segment (unchanged since), or written by the host
  stretch just before it.
-/
import proofs.«120293_j27908697489545_2_alg».proof.Proof.Gen.KernelIdeal.Frame
import proofs.«120293_j27908697489545_2_alg».proof.Proof.KKeep
import proofs.«120293_j27908697489545_2_alg».proof.Proof.KAgg
import proofs.«120293_j27908697489545_2_alg».proof.Proof.KReg0
import proofs.«120293_j27908697489545_2_alg».proof.Proof.KReg1
import proofs.«120293_j27908697489545_2_alg».proof.Proof.KReg2
import proofs.«120293_j27908697489545_2_alg».proof.Proof.KReg3
import proofs.«120293_j27908697489545_2_alg».proof.Proof.KReg4
import proofs.«120293_j27908697489545_2_alg».proof.Proof.KReg5
import Idealize.ShloMosaic.Lib.StableHlo.Run

set_option maxRecDepth 16384

noncomputable section

namespace Cert.KernelIdeal.Hand

open Cert.KernelIdeal Cert.KernelIdeal.Gen Cert.Gin
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The argument arrays of one core, by their shapes -/

abbrev ax (c : Dev nD) : S100000x128.Idx → EReal := m ((c : Thread nD τ).loc main_arg0)
abbrev ae (c : Dev nD) : IVec S2x1600000 32 := m ((c : Thread nD τ).loc main_arg1)
abbrev aw1a (c : Dev nD) : S128x32.Idx → EReal := m ((c : Thread nD τ).loc main_arg2)
abbrev ab1a (c : Dev nD) : S32.Idx → EReal := m ((c : Thread nD τ).loc main_arg3)
abbrev aw1b (c : Dev nD) : S32x32.Idx → EReal := m ((c : Thread nD τ).loc main_arg4)
abbrev ab1b (c : Dev nD) : S32.Idx → EReal := m ((c : Thread nD τ).loc main_arg5)
abbrev aw2a (c : Dev nD) : S32x32.Idx → EReal := m ((c : Thread nD τ).loc main_arg6)
abbrev ab2a (c : Dev nD) : S32.Idx → EReal := m ((c : Thread nD τ).loc main_arg7)
abbrev aw2b (c : Dev nD) : S32x32.Idx → EReal := m ((c : Thread nD τ).loc main_arg8)
abbrev ab2b (c : Dev nD) : S32.Idx → EReal := m ((c : Thread nD τ).loc main_arg9)
abbrev aw3 (c : Dev nD) : S32x1.Idx → EReal := m ((c : Thread nD τ).loc main_arg10)
abbrev ab3 (c : Dev nD) : S1.Idx → EReal := m ((c : Thread nD τ).loc main_arg11)

/-! ## The stage values -/

def stP1 (c : Dev nD) : S100000x32.Idx → EReal := G0 (ax m c) (aw1a m c)
def stA1 (c : Dev nD) : S100000x32.Idx → EReal := aggArr32 (ae m c) (stP1 m c)
def stH1 (c : Dev nD) : S100000x32.Idx → EReal := G1 (stP1 m c) (stA1 m c) (row32 (ab1a m c)) (aw1b m c) (row32 (ab1b m c))
def stP2 (c : Dev nD) : S100000x32.Idx → EReal := G2 (stH1 m c) (aw2a m c)
def stA2 (c : Dev nD) : S100000x32.Idx → EReal := aggArr32 (ae m c) (stP2 m c)
def stH2 (c : Dev nD) : S100000x32.Idx → EReal := G1 (stP2 m c) (stA2 m c) (row32 (ab2a m c)) (aw2b m c) (row32 (ab2b m c))
def stQ (c : Dev nD) : S100000x1.Idx → EReal := G4 (stH2 m c) (aw3 m c)
def stA3 (c : Dev nD) : S100000x1.Idx → EReal := aggArr1 (ae m c) (stQ m c)
def stOut (c : Dev nD) : S100000x1.Idx → EReal := G5 (stQ m c) (stA3 m c) (row1 (ab3 m c))

/-! ## The first host stretch: the two index rows -/

theorem s1_v1 (c : Dev nD) : (W1 m ρ c (Proc.devRef .tc main_v1) : IVec S1600000 32) = srcFlat (ae m c) := by
  show StableHlo.after hostOps0 (W0 m ρ c) (Proc.devRef .tc main_v1) = _
  after_results
  rfl

theorem s1_v3 (c : Dev nD) : (W1 m ρ c (Proc.devRef .tc main_v3) : IVec S1600000 32) = dstFlat (ae m c) := by
  show StableHlo.after hostOps0 (W0 m ρ c) (Proc.devRef .tc main_v3) = _
  after_results
  rfl

/-! ## Layer 1 -/

theorem s2_v4 (c : Dev nD) : (W2 m ρ c (Proc.devRef .tc main_v4) : S100000x32.Idx → EReal) = stP1 m c :=
  (W2_arr m ρ c 2).trans ((value0 (V1 m ρ) c).trans (by
    show G0 (W1 m ρ c (Proc.devRef .tc main_arg0)) (W1 m ρ c (Proc.devRef .tc main_arg2)) = _
    rw [at1_main_arg0, at1_main_arg2]; rfl))

theorem s3_v14 (c : Dev nD) : (W3 m ρ c (Proc.devRef .tc main_v14) : S100000x32.Idx → EReal) = stA1 m c := by
  show StableHlo.after hostOps1 (W2 m ρ c) (Proc.devRef .tc main_v14) = _
  after_results
  rw [at2_main_v1, s1_v1, at2_main_v3, s1_v3, s2_v4]
  rfl

theorem s3_v15 (c : Dev nD) : (W3 m ρ c (Proc.devRef .tc main_v15) : S1x32.Idx → EReal) = row32 (ab1a m c) := by
  show StableHlo.after hostOps1 (W2 m ρ c) (Proc.devRef .tc main_v15) = _
  after_results
  rw [at2_main_arg3]
  rfl

theorem s3_v16 (c : Dev nD) : (W3 m ρ c (Proc.devRef .tc main_v16) : S1x32.Idx → EReal) = row32 (ab1b m c) := by
  show StableHlo.after hostOps1 (W2 m ρ c) (Proc.devRef .tc main_v16) = _
  after_results
  rw [at2_main_arg5]
  rfl

theorem s4_v17 (c : Dev nD) : (W4 m ρ c (Proc.devRef .tc main_v17) : S100000x32.Idx → EReal) = stH1 m c :=
  (W4_arr m ρ c 5).trans ((value1 (V3 m ρ) c).trans (by
    show G1 (W3 m ρ c (Proc.devRef .tc main_v4)) (W3 m ρ c (Proc.devRef .tc main_v14)) (W3 m ρ c (Proc.devRef .tc main_v15))
      (W3 m ρ c (Proc.devRef .tc main_arg4)) (W3 m ρ c (Proc.devRef .tc main_v16)) = _
    rw [at3_main_v4, s2_v4, s3_v14, s3_v15, at3_main_arg4, s3_v16]; rfl))

/-! ## Layer 2 -/

theorem s5_v18 (c : Dev nD) : (W5 m ρ c (Proc.devRef .tc main_v18) : S100000x32.Idx → EReal) = stP2 m c :=
  (W5_arr m ρ c 2).trans ((value2 (V4 m ρ) c).trans (by
    show G2 (W4 m ρ c (Proc.devRef .tc main_v17)) (W4 m ρ c (Proc.devRef .tc main_arg6)) = _
    rw [s4_v17, at4_main_arg6]; rfl))

theorem s6_v28 (c : Dev nD) : (W6 m ρ c (Proc.devRef .tc main_v28) : S100000x32.Idx → EReal) = stA2 m c := by
  show StableHlo.after hostOps3 (W5 m ρ c) (Proc.devRef .tc main_v28) = _
  after_results
  rw [at5_main_v1, s1_v1, at5_main_v3, s1_v3, s5_v18]
  rfl

theorem s6_v29 (c : Dev nD) : (W6 m ρ c (Proc.devRef .tc main_v29) : S1x32.Idx → EReal) = row32 (ab2a m c) := by
  show StableHlo.after hostOps3 (W5 m ρ c) (Proc.devRef .tc main_v29) = _
  after_results
  rw [at5_main_arg7]
  rfl

theorem s6_v30 (c : Dev nD) : (W6 m ρ c (Proc.devRef .tc main_v30) : S1x32.Idx → EReal) = row32 (ab2b m c) := by
  show StableHlo.after hostOps3 (W5 m ρ c) (Proc.devRef .tc main_v30) = _
  after_results
  rw [at5_main_arg9]
  rfl

theorem s7_v31 (c : Dev nD) : (W7 m ρ c (Proc.devRef .tc main_v31) : S100000x32.Idx → EReal) = stH2 m c :=
  (W7_arr m ρ c 5).trans ((value3 (V6 m ρ) c).trans (by
    show G1 (W6 m ρ c (Proc.devRef .tc main_v18)) (W6 m ρ c (Proc.devRef .tc main_v28)) (W6 m ρ c (Proc.devRef .tc main_v29))
      (W6 m ρ c (Proc.devRef .tc main_arg8)) (W6 m ρ c (Proc.devRef .tc main_v30)) = _
    rw [at6_main_v18, s5_v18, s6_v28, s6_v29, at6_main_arg8, s6_v30]; rfl))

/-! ## Layer 3 -/

theorem s8_v32 (c : Dev nD) : (W8 m ρ c (Proc.devRef .tc main_v32) : S100000x1.Idx → EReal) = stQ m c :=
  (W8_arr m ρ c 2).trans ((value4 (V7 m ρ) c).trans (by
    show G4 (W7 m ρ c (Proc.devRef .tc main_v31)) (W7 m ρ c (Proc.devRef .tc main_arg10)) = _
    rw [s7_v31, at7_main_arg10]; rfl))

theorem s9_v42 (c : Dev nD) : (W9 m ρ c (Proc.devRef .tc main_v42) : S100000x1.Idx → EReal) = stA3 m c := by
  show StableHlo.after hostOps5 (W8 m ρ c) (Proc.devRef .tc main_v42) = _
  after_results
  rw [at8_main_v1, s1_v1, at8_main_v3, s1_v3, s8_v32]
  rfl

theorem s9_v43 (c : Dev nD) : (W9 m ρ c (Proc.devRef .tc main_v43) : S1x1.Idx → EReal) = row1 (ab3 m c) := by
  show StableHlo.after hostOps5 (W8 m ρ c) (Proc.devRef .tc main_v43) = _
  after_results
  rw [at8_main_arg11]
  rfl

/-- THE RESULT BUFFER at the end of the fold. -/
theorem s10_v44 (c : Dev nD) : (W10 m ρ c (Proc.devRef .tc main_v44) : S100000x1.Idx → EReal) = stOut m c :=
  (W10_arr m ρ c 3).trans ((value5 (V9 m ρ) c).trans (by
    show G5 (W9 m ρ c (Proc.devRef .tc main_v32)) (W9 m ρ c (Proc.devRef .tc main_v42)) (W9 m ρ c (Proc.devRef .tc main_v43)) = _
    rw [at9_main_v32, s8_v32, s9_v42, s9_v43]; rfl))

end Cert.KernelIdeal.Hand

end
-- ==== Proof.KTab.lean ====
/-
  THE STAGE ARRAYS AS TABLES.

  Read as curried tables, a projection region's array is the specification's product `mm`, the host's neighbour sum
  is `agg` at the edge array's source rows and landing nodes, and a bias row at (0, k) is the bias at k. So an
  epilogue region's array, given that the array it adds the neighbour sum to is the product `f · Wa`, is the layer
  `kLayer` of `f`; and the final region's array is `kFinal`.
-/
import proofs.«120293_j27908697489545_2_alg».proof.Proof.KAgg
import proofs.«120293_j27908697489545_2_alg».proof.Proof.KReg0

noncomputable section

open scoped BigOperators

namespace Cert.KernelIdeal.Hand

open Cert.KernelIdeal Cert.KernelIdeal.Gen Cert.Gin
open Idealize.ShloMosaic Idealize.ShloMosaic.ValueIdx

theorem mat_G0 (A : S100000x128.Idx → EReal) (Wt : S128x32.Idx → EReal) : mat (G0 A Wt) = mm (mat A) (mat Wt) := rfl
theorem mat_G2 (A : S100000x32.Idx → EReal) (Wt : S32x32.Idx → EReal) : mat (G2 A Wt) = mm (mat A) (mat Wt) := rfl
theorem mat_G4 (A : S100000x32.Idx → EReal) (Wt : S32x1.Idx → EReal) : mat (G4 A Wt) = mm (mat A) (mat Wt) := rfl

/-- An epilogue's array over the product `P = f · Wa` and its neighbour sum is the layer of `f`. -/
theorem layer_tab {K : Nat} (a1 : IVec S2x1600000 32) (P : S100000x32.Idx → EReal) (f : Fin NN → Fin K → EReal)
    (wa : Fin K → Fin 32 → EReal) (hP : mat P = mm f wa) (b : S32.Idx → EReal) (Wb : S32x32.Idx → EReal) (b' : S32.Idx → EReal) :
    mat (G1 P (aggArr32 a1 P) (row32 b) Wb (row32 b'))
      = kLayer (srcRow (srcCol a1)) (lands (dstCol a1)) f wa (vec b) (mat Wb) (vec b') := by
  funext n j
  show (∑ k : Fin 32, max ((P (ix2 n k) + aggArr32 a1 P (ix2 n k)) + row32 b (ix2 (0 : Fin 1) k)) 0 * Wb (ix2 k j))
    + row32 b' (ix2 (0 : Fin 1) j) = _
  rw [row32_apply]
  unfold kLayer
  show _ = (∑ k : Fin 32, max ((mm f wa n k + agg (srcRow (srcCol a1)) (lands (dstCol a1)) (mm f wa) n k) + vec b k) 0 * mat Wb k j)
    + vec b' j
  congr 1
  refine Finset.sum_congr rfl fun k _ => ?_
  have hPnk : P (ix2 n k) = mm f wa n k := congrFun (congrFun hP n) k
  rw [aggArr32_apply, row32_apply, hP, hPnk]
  rfl

/-- The final region's array over the product `Q = f · w3` and its neighbour sum is the last layer of `f`. -/
theorem final_tab (a1 : IVec S2x1600000 32) (Qa : S100000x1.Idx → EReal) (f : Fin NN → Fin 32 → EReal)
    (w3 : Fin 32 → Fin 1 → EReal) (hQ : mat Qa = mm f w3) (b : S1.Idx → EReal) :
    mat (G5 Qa (aggArr1 a1 Qa) (row1 b)) = kFinal (srcRow (srcCol a1)) (lands (dstCol a1)) f w3 (vec b) := by
  funext n u
  show (Qa (ix2 n u) + aggArr1 a1 Qa (ix2 n u)) + row1 b (ix2 (0 : Fin 1) u) = _
  have hQnu : Qa (ix2 n u) = mm f w3 n u := congrFun (congrFun hQ n) u
  rw [aggArr1_apply, row1_apply, hQ, hQnu]
  rfl

end Cert.KernelIdeal.Hand

end
-- ==== Proof.KOut.lean ====
/-
  THE KERNEL PROGRAM'S RESULT IS THE PRODUCT-FIRST NETWORK.

  The run ends with the result array at the term `stOut` of the arguments, and read as a table that term is the
  specification's `kOut`: three layers, each multiplying by its first weight matrix before it aggregates, at the edge
  array's source rows and landing nodes.
-/
import proofs.«120293_j27908697489545_2_alg».proof.Proof.KRun
import proofs.«120293_j27908697489545_2_alg».proof.Proof.KStage
import proofs.«120293_j27908697489545_2_alg».proof.Proof.KTab

set_option maxRecDepth 16384

noncomputable section

namespace Cert.KernelIdeal.Hand

open Cert.KernelIdeal Cert.KernelIdeal.Gen Cert.Gin
open Idealize.ShloMosaic Idealize.ShloMosaic.TcCoe Idealize.SL.Sem Idealize.ShloMosaic.ValueIdx

variable (m : (ℓ : Loc nD τ sig) → Buf (Elt Ideal) ℓ) (ρ : Dev nD → PrngReg)

/-- The result term as a table. -/
theorem stOut_tab (c : Dev nD) :
    mat (stOut m c) = kOut (srcRow (srcCol (ae m c))) (lands (dstCol (ae m c))) (mat (ax m c)) (mat (aw1a m c)) (vec (ab1a m c))
      (mat (aw1b m c)) (vec (ab1b m c)) (mat (aw2a m c)) (vec (ab2a m c)) (mat (aw2b m c)) (vec (ab2b m c))
      (mat (aw3 m c)) (vec (ab3 m c)) := by
  have h1 : mat (stH1 m c) = kLayer (srcRow (srcCol (ae m c))) (lands (dstCol (ae m c))) (mat (ax m c)) (mat (aw1a m c))
      (vec (ab1a m c)) (mat (aw1b m c)) (vec (ab1b m c)) :=
    layer_tab (ae m c) (stP1 m c) _ _ (mat_G0 _ _) _ _ _
  have h2 : mat (stH2 m c) = kLayer (srcRow (srcCol (ae m c))) (lands (dstCol (ae m c)))
      (kLayer (srcRow (srcCol (ae m c))) (lands (dstCol (ae m c))) (mat (ax m c)) (mat (aw1a m c)) (vec (ab1a m c))
        (mat (aw1b m c)) (vec (ab1b m c))) (mat (aw2a m c)) (vec (ab2a m c)) (mat (aw2b m c)) (vec (ab2b m c)) :=
    layer_tab (ae m c) (stP2 m c) _ _ ((mat_G2 _ _).trans (by rw [h1])) _ _ _
  exact final_tab (ae m c) (stQ m c) _ _ ((mat_G4 _ _).trans (by rw [h2])) _

/-- THE RUN, READ: the result array ends at `stOut`, the twelve arguments as launched. -/
theorem run_value : θ_run defs (onTc (τ := τ) (main (F := Ideal))) ⟨m, fun _ => 0, ρ⟩ (fun r => ∀ c : Dev nD,
      r.2.mem ((c.tc : Thread nD τ).loc main_v44) = stOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (s10_v44 m ρ c), (h c).2⟩) (run_result m ρ)

end Cert.KernelIdeal.Hand

end
-- ==== Proof.RefStages.lean ====
/-
  THE REFERENCE NETWORK'S FIRST LAYER, READ AT AN INDEX.

  The reference computes each layer as: gather the source rows of the feature table, add every gathered row onto the
  row of a zero table that the edge's destination number names, add the features themselves, multiply by the first
  weight matrix, add the bias, clamp below at zero, multiply by the second weight matrix and add the second bias.
  Read at an index, the gather followed by the accumulating scatter is the neighbour sum `agg` of the specification
  (with the row an edge fetches and the node it lands on read off the two integer columns the program builds from the
  edge list), each product is the specification's `mm`, and the layer is `rLayer`. This module fixes the two integer
  columns, shows that the later layers rebuild the same two columns, states the neighbour sum once for any width, and
  reads the first layer.
-/
import proofs.«120293_j27908697489545_2_alg».proof.Proof.Spec
import proofs.«120293_j27908697489545_2_alg».proof.Proof.Gen.ReferenceIdeal.Read
import proofs.«120293_j27908697489545_2_alg».proof.Proof.LibRowGatherScatter
import proofs.«120293_j27908697489545_2_alg».proof.Proof.LibPlainDot
import Idealize.ShloMosaic.Lib.ValueIdx
import Idealize.ShloMosaic.Lib.Pipeline.Value
import Idealize.ShloMosaic.PureOps.Ideal.Laws

noncomputable section

open scoped BigOperators

namespace Cert.Gin.Ref

open Cert.ReferenceIdeal Cert.ReferenceIdeal.Gen Cert.ReferenceIdeal.Read
open Idealize.ShloMosaic Idealize.ShloMosaic.ValueIdx Idealize.ShloMosaic.RowGatherScatter

/-- The column of source numbers the program gathers rows by: the first row of the edge list, a negative number
    moved up by the node count (the program's own normalisation), as an `[EE, 1]` column. -/
def srcCol (a1 : IVec ⟨2, ![2, EE]⟩ 32) : IVec ⟨2, ![EE, 1]⟩ 32 := val_main_v9 (F := Ideal) a1
/-- The column of destination numbers the program scatters rows by: the second row of the edge list as an
    `[EE, 1]` column. -/
def dstCol (a1 : IVec ⟨2, ![2, EE]⟩ 32) : IVec ⟨2, ![EE, 1]⟩ 32 := val_main_v12 (F := Ideal) a1

/-- The second layer recomputes the same source column. -/
theorem v29_eq (a1 : IVec ⟨2, ![2, EE]⟩ 32) : val_main_v29 (F := Ideal) a1 = srcCol a1 := by
  unfold srcCol val_main_v29 val_main_v28 val_main_v25 val_main_v27 val_main_v24 val_main_v26 val_main_c_1 val_main_c_2
    val_main_v9 val_main_v8 val_main_v5 val_main_v7 val_main_v4 val_main_v6 val_main_c val_main_c_0
  rfl
/-- The third layer recomputes the same source column. -/
theorem v49_eq (a1 : IVec ⟨2, ![2, EE]⟩ 32) : val_main_v49 (F := Ideal) a1 = srcCol a1 := by
  unfold srcCol val_main_v49 val_main_v48 val_main_v45 val_main_v47 val_main_v44 val_main_v46 val_main_c_4 val_main_c_5
    val_main_v9 val_main_v8 val_main_v5 val_main_v7 val_main_v4 val_main_v6 val_main_c val_main_c_0
  rfl
/-- The second layer recomputes the same destination column. -/
theorem v32_eq (a1 : IVec ⟨2, ![2, EE]⟩ 32) : val_main_v32 (F := Ideal) a1 = dstCol a1 := rfl
/-- The third layer recomputes the same destination column. -/
theorem v52_eq (a1 : IVec ⟨2, ![2, EE]⟩ 32) : val_main_v52 (F := Ideal) a1 = dstCol a1 := rfl

/-- THE NEIGHBOUR SUM AS THE PROGRAM COMPUTES IT: gather the source rows of a table, then add each gathered row onto
    the row of a zero table that its destination number names. At `(n, k)` that is the sum over the edges landing
    on `n` of the source row's column `k`. -/
theorem gatherScatter_apply {C : Nat}
    (wfg : GatherDims.WF ⟨2, ![NN, C]⟩ ⟨2, ![EE, 1]⟩ ⟨2, ![EE, C]⟩ [1] [0] [] [0] [] 1 ![1, C])
    (wfs : ScatterDims.WF ⟨2, ![NN, C]⟩ ⟨2, ![EE, 1]⟩ ⟨2, ![EE, C]⟩ [1] [0] [0] 1)
    (f z : (⟨2, ![NN, C]⟩ : Shape).Idx → EReal) (hz : ∀ i, z i = 0) (src dst : IVec ⟨2, ![EE, 1]⟩ 32)
    (n : Fin NN) (k : Fin C) :
    Ideal.hostScatterAdd (rowScatterDims NN EE C wfs) z dst (Host.gather (rowGatherDims NN EE C wfg) f src) (ix2 n k)
      = agg (srcRow src) (lands dst) (mat f) n k := by
  rw [hostScatterAdd_rows_apply, hz, zero_add]
  unfold agg
  refine Finset.sum_congr rfl fun e _ => ?_
  rw [gather_rows_apply (by unfold NN; omega)]
  exact if_congr Iff.rfl rfl rfl

/-- The program's row-gather and row-scatter records are the library's, with the program's own well-formedness facts. -/
theorem gather128_eq : gather_S100000x128_S1600000x1_S1600000x128_1_0_n_n_0_1_1128
    = rowGatherDims NN EE 128 Facts₀.gather_S100000x128_S1600000x1_S1600000x128_1_0_n_n_0_1_1128_wf := rfl
theorem scatter128_eq : scatter_S100000x128_S1600000x1_S1600000x128_1_0_0_1
    = rowScatterDims NN EE 128 Facts₀.scatter_S100000x128_S1600000x1_S1600000x128_1_0_0_1_wf := rfl
theorem gather32_eq : gather_S100000x32_S1600000x1_S1600000x32_1_0_n_n_0_1_132
    = rowGatherDims NN EE 32 Facts₀.gather_S100000x32_S1600000x1_S1600000x32_1_0_n_n_0_1_132_wf := rfl
theorem scatter32_eq : scatter_S100000x32_S1600000x1_S1600000x32_1_0_0_1
    = rowScatterDims NN EE 32 Facts₀.scatter_S100000x32_S1600000x1_S1600000x32_1_0_0_1_wf := rfl

/-- The table the first scatter accumulates into is zero. -/
theorem v11_zero (i : (⟨2, ![NN, 128]⟩ : Shape).Idx) : val_main_v11 (F := Ideal) i = 0 := by
  rw [val_main_v11_apply, val_main_cst_apply]; exact Ideal.ofBits_zero_f32

/-- At the exact instance the host's accumulating scatter is the exact sum. -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

section Layer1

variable (a0 : (⟨2, ![NN, 128]⟩ : Shape).Idx → EReal) (a1 : IVec ⟨2, ![2, EE]⟩ 32)
  (a2 : (⟨2, ![128, 32]⟩ : Shape).Idx → EReal) (a3 : (⟨1, ![32]⟩ : Shape).Idx → EReal)
  (a4 : (⟨2, ![32, 32]⟩ : Shape).Idx → EReal) (a5 : (⟨1, ![32]⟩ : Shape).Idx → EReal)

/-- The first neighbour sum. -/
theorem v13_apply (n : Fin NN) (k : Fin 128) :
    val_main_v13 (F := Ideal) a0 a1 (ix2 n k) = agg (srcRow (srcCol a1)) (lands (dstCol a1)) (mat a0) n k := by
  unfold val_main_v13 val_main_v10
  rw [gather128_eq, scatter128_eq, scatterAdd_ideal]
  exact gatherScatter_apply _ _ a0 (val_main_v11 (F := Ideal)) v11_zero (srcCol a1) (dstCol a1) n k

/-- The first layer's first product: the features plus their neighbour sum, times the first weight matrix. -/
theorem v15_apply (n : Fin NN) (j : Fin 32) :
    val_main_v15 (F := Ideal) a0 a1 a2 (ix2 n j)
      = mm (fun n k => mat a0 n k + agg (srcRow (srcCol a1)) (lands (dstCol a1)) (mat a0) n k) (mat a2) n j := by
  rw [val_main_v15_apply]
  unfold mm
  refine Finset.sum_congr rfl fun k _ => ?_
  have el : lidx_main_v15 (ix2 n j) k = ix2 n k := funext fun a => by match a with | ⟨0, _⟩ => rfl | ⟨1, _⟩ => rfl
  have er : ridx_main_v15 (ix2 n j) k = ix2 k j := funext fun a => by match a with | ⟨0, _⟩ => rfl | ⟨1, _⟩ => rfl
  rw [el, er, val_main_v14_apply, v13_apply]
  rfl

/-- A bias vector broadcast along the rows. -/
theorem v17_apply (n : Fin NN) (j : Fin 32) : val_main_v17 (F := Ideal) a3 (ix2 n j) = vec a3 j := by
  rw [val_main_v17_apply, val_main_v16_apply]
  exact congrArg a3 (funext fun a => by match a with | ⟨0, _⟩ => rfl)

/-- The first layer's hidden activations. -/
theorem v19_apply (n : Fin NN) (k : Fin 32) :
    val_main_v19 (F := Ideal) a0 a1 a2 a3 (ix2 n k)
      = max (mm (fun n k => mat a0 n k + agg (srcRow (srcCol a1)) (lands (dstCol a1)) (mat a0) n k) (mat a2) n k + vec a3 k) 0 := by
  rw [val_main_v19_apply, val_main_v18_apply, v15_apply, v17_apply, val_main_call0_v0_apply, val_main_call0_cst_apply]
  exact congrArg _ Ideal.ofBits_zero_f32

/-- The first layer's output table is the specification's layer. -/
theorem v23_apply (n : Fin NN) (j : Fin 32) :
    val_main_v23 (F := Ideal) a0 a1 a2 a3 a4 a5 (ix2 n j)
      = rLayer (srcRow (srcCol a1)) (lands (dstCol a1)) (mat a0) (mat a2) (vec a3) (mat a4) (vec a5) n j := by
  rw [val_main_v23_apply, val_main_v20_apply]
  unfold rLayer
  have hb : val_main_v22 (F := Ideal) a5 (ix2 n j) = vec a5 j := by
    rw [val_main_v22_apply, val_main_v21_apply]
    exact congrArg a5 (funext fun a => by match a with | ⟨0, _⟩ => rfl)
  rw [hb]
  refine congrArg (· + vec a5 j) ?_
  unfold mm
  refine Finset.sum_congr rfl fun k _ => ?_
  have el : lidx_main_v20 (ix2 n j) k = ix2 n k := funext fun a => by match a with | ⟨0, _⟩ => rfl | ⟨1, _⟩ => rfl
  have er : ridx_main_v20 (ix2 n j) k = ix2 k j := funext fun a => by match a with | ⟨0, _⟩ => rfl | ⟨1, _⟩ => rfl
  rw [el, er, v19_apply]
  rfl

end Layer1

end Cert.Gin.Ref

end
-- ==== Proof.RefValue.lean ====
/-
  THE REFERENCE NETWORK'S RESULT, READ AT AN INDEX.

  The second and third layers repeat the first over the previous layer's table: the same two integer columns, a gather
  and an accumulating scatter that read as the neighbour sum, a product, a bias, and (in the second layer) a clamp below
  at zero, a second product and a second bias. Each stage is read at an index over an arbitrary name for the previous
  layer's table, so that the three layers compose into the specification's `rOut` — the network that takes the
  neighbour sum first and multiplies by the first weight matrix afterwards in every layer.
-/
import proofs.«120293_j27908697489545_2_alg».proof.Proof.RefStages

noncomputable section

open scoped BigOperators

namespace Cert.Gin.Ref

open Cert.ReferenceIdeal Cert.ReferenceIdeal.Gen Cert.ReferenceIdeal.Read
open Idealize.ShloMosaic Idealize.ShloMosaic.ValueIdx Idealize.ShloMosaic.RowGatherScatter

section Layer2

variable (a0 : (⟨2, ![NN, 128]⟩ : Shape).Idx → EReal) (a1 : IVec ⟨2, ![2, EE]⟩ 32)
  (a2 : (⟨2, ![128, 32]⟩ : Shape).Idx → EReal) (a3 : (⟨1, ![32]⟩ : Shape).Idx → EReal)
  (a4 : (⟨2, ![32, 32]⟩ : Shape).Idx → EReal) (a5 : (⟨1, ![32]⟩ : Shape).Idx → EReal)
  (a6 : (⟨2, ![32, 32]⟩ : Shape).Idx → EReal) (a7 : (⟨1, ![32]⟩ : Shape).Idx → EReal)
  (a8 : (⟨2, ![32, 32]⟩ : Shape).Idx → EReal) (a9 : (⟨1, ![32]⟩ : Shape).Idx → EReal)
  (a10 : (⟨2, ![32, 1]⟩ : Shape).Idx → EReal) (a11 : (⟨1, ![1]⟩ : Shape).Idx → EReal)

/-- The tables the second and third scatters accumulate into are zero. -/
theorem v31_zero (i : (⟨2, ![NN, 32]⟩ : Shape).Idx) : val_main_v31 (F := Ideal) i = 0 := by
  rw [val_main_v31_apply, val_main_cst_3_apply]; exact Ideal.ofBits_zero_f32
theorem v51_zero (i : (⟨2, ![NN, 32]⟩ : Shape).Idx) : val_main_v51 (F := Ideal) i = 0 := by
  rw [val_main_v51_apply, val_main_cst_6_apply]; exact Ideal.ofBits_zero_f32

/-- The second neighbour sum, of whatever table `f` the first layer's output is. -/
theorem v33_apply (f : Fin NN → Fin 32 → EReal) (hf : mat (val_main_v23 (F := Ideal) a0 a1 a2 a3 a4 a5) = f)
    (n : Fin NN) (k : Fin 32) :
    val_main_v33 (F := Ideal) a0 a1 a2 a3 a4 a5 (ix2 n k) = agg (srcRow (srcCol a1)) (lands (dstCol a1)) f n k := by
  subst hf
  unfold val_main_v33 val_main_v30
  rw [gather32_eq, scatter32_eq, scatterAdd_ideal, v29_eq, v32_eq]
  exact gatherScatter_apply _ _ (val_main_v23 (F := Ideal) a0 a1 a2 a3 a4 a5) (val_main_v31 (F := Ideal)) v31_zero
    (srcCol a1) (dstCol a1) n k

/-- The second layer's first product. -/
theorem v35_apply (f : Fin NN → Fin 32 → EReal) (hf : mat (val_main_v23 (F := Ideal) a0 a1 a2 a3 a4 a5) = f)
    (n : Fin NN) (j : Fin 32) :
    val_main_v35 (F := Ideal) a0 a1 a2 a3 a4 a5 a6 (ix2 n j)
      = mm (fun n k => f n k + agg (srcRow (srcCol a1)) (lands (dstCol a1)) f n k) (mat a6) n j := by
  rw [val_main_v35_apply]
  unfold mm
  refine Finset.sum_congr rfl fun k _ => ?_
  have el : lidx_main_v35 (ix2 n j) k = ix2 n k := funext fun a => by match a with | ⟨0, _⟩ => rfl | ⟨1, _⟩ => rfl
  have er : ridx_main_v35 (ix2 n j) k = ix2 k j := funext fun a => by match a with | ⟨0, _⟩ => rfl | ⟨1, _⟩ => rfl
  rw [el, er, val_main_v34_apply, v33_apply a0 a1 a2 a3 a4 a5 f hf]
  subst hf
  rfl

/-- The second layer's first bias, broadcast along the rows. -/
theorem v37_apply (n : Fin NN) (j : Fin 32) : val_main_v37 (F := Ideal) a7 (ix2 n j) = vec a7 j := by
  rw [val_main_v37_apply, val_main_v36_apply]
  exact congrArg a7 (funext fun a => by match a with | ⟨0, _⟩ => rfl)

/-- The second layer's hidden activations. -/
theorem v39_apply (f : Fin NN → Fin 32 → EReal) (hf : mat (val_main_v23 (F := Ideal) a0 a1 a2 a3 a4 a5) = f)
    (n : Fin NN) (k : Fin 32) :
    val_main_v39 (F := Ideal) a0 a1 a2 a3 a4 a5 a6 a7 (ix2 n k)
      = max (mm (fun n k => f n k + agg (srcRow (srcCol a1)) (lands (dstCol a1)) f n k) (mat a6) n k + vec a7 k) 0 := by
  rw [val_main_v39_apply, val_main_v38_apply, v35_apply a0 a1 a2 a3 a4 a5 a6 f hf, v37_apply, val_main_call1_v0_apply,
    val_main_call1_cst_apply]
  exact congrArg _ Ideal.ofBits_zero_f32

/-- The second layer's output table is the specification's layer over the first layer's table. -/
theorem v43_apply (f : Fin NN → Fin 32 → EReal) (hf : mat (val_main_v23 (F := Ideal) a0 a1 a2 a3 a4 a5) = f)
    (n : Fin NN) (j : Fin 32) :
    val_main_v43 (F := Ideal) a0 a1 a2 a3 a4 a5 a6 a7 a8 a9 (ix2 n j)
      = rLayer (srcRow (srcCol a1)) (lands (dstCol a1)) f (mat a6) (vec a7) (mat a8) (vec a9) n j := by
  rw [val_main_v43_apply, val_main_v40_apply]
  unfold rLayer
  have hb : val_main_v42 (F := Ideal) a9 (ix2 n j) = vec a9 j := by
    rw [val_main_v42_apply, val_main_v41_apply]
    exact congrArg a9 (funext fun a => by match a with | ⟨0, _⟩ => rfl)
  rw [hb]
  refine congrArg (· + vec a9 j) ?_
  unfold mm
  refine Finset.sum_congr rfl fun k _ => ?_
  have el : lidx_main_v40 (ix2 n j) k = ix2 n k := funext fun a => by match a with | ⟨0, _⟩ => rfl | ⟨1, _⟩ => rfl
  have er : ridx_main_v40 (ix2 n j) k = ix2 k j := funext fun a => by match a with | ⟨0, _⟩ => rfl | ⟨1, _⟩ => rfl
  rw [el, er, v39_apply a0 a1 a2 a3 a4 a5 a6 a7 f hf]
  rfl

end Layer2

section Layer3

variable (a0 : (⟨2, ![NN, 128]⟩ : Shape).Idx → EReal) (a1 : IVec ⟨2, ![2, EE]⟩ 32)
  (a2 : (⟨2, ![128, 32]⟩ : Shape).Idx → EReal) (a3 : (⟨1, ![32]⟩ : Shape).Idx → EReal)
  (a4 : (⟨2, ![32, 32]⟩ : Shape).Idx → EReal) (a5 : (⟨1, ![32]⟩ : Shape).Idx → EReal)
  (a6 : (⟨2, ![32, 32]⟩ : Shape).Idx → EReal) (a7 : (⟨1, ![32]⟩ : Shape).Idx → EReal)
  (a8 : (⟨2, ![32, 32]⟩ : Shape).Idx → EReal) (a9 : (⟨1, ![32]⟩ : Shape).Idx → EReal)
  (a10 : (⟨2, ![32, 1]⟩ : Shape).Idx → EReal) (a11 : (⟨1, ![1]⟩ : Shape).Idx → EReal)

/-- The third neighbour sum, of whatever table `g` the second layer's output is. -/
theorem v53_apply (g : Fin NN → Fin 32 → EReal)
    (hg : mat (val_main_v43 (F := Ideal) a0 a1 a2 a3 a4 a5 a6 a7 a8 a9) = g) (n : Fin NN) (k : Fin 32) :
    val_main_v53 (F := Ideal) a0 a1 a2 a3 a4 a5 a6 a7 a8 a9 (ix2 n k)
      = agg (srcRow (srcCol a1)) (lands (dstCol a1)) g n k := by
  subst hg
  unfold val_main_v53 val_main_v50
  rw [gather32_eq, scatter32_eq, scatterAdd_ideal, v49_eq, v52_eq]
  exact gatherScatter_apply _ _ (val_main_v43 (F := Ideal) a0 a1 a2 a3 a4 a5 a6 a7 a8 a9) (val_main_v51 (F := Ideal)) v51_zero
    (srcCol a1) (dstCol a1) n k

/-- The last layer: the second layer's table plus its neighbour sum, times the last weight column, plus the last bias. -/
theorem v58_apply (g : Fin NN → Fin 32 → EReal)
    (hg : mat (val_main_v43 (F := Ideal) a0 a1 a2 a3 a4 a5 a6 a7 a8 a9) = g) (n : Fin NN) (u : Fin 1) :
    val_main_v58 (F := Ideal) a0 a1 a2 a3 a4 a5 a6 a7 a8 a9 a10 a11 (ix2 n u)
      = rFinal (srcRow (srcCol a1)) (lands (dstCol a1)) g (mat a10) (vec a11) n u := by
  rw [val_main_v58_apply, val_main_v55_apply]
  unfold rFinal
  have hb : val_main_v57 (F := Ideal) a11 (ix2 n u) = vec a11 u := by
    rw [val_main_v57_apply, val_main_v56_apply]
    exact congrArg a11 (funext fun a => by
      match a with
      | ⟨0, _⟩ => exact Fin.ext (by have := u.isLt; show 0 = u.val; omega))
  rw [hb]
  refine congrArg (· + vec a11 u) ?_
  unfold mm
  refine Finset.sum_congr rfl fun k _ => ?_
  have el : lidx_main_v55 (ix2 n u) k = ix2 n k := funext fun a => by match a with | ⟨0, _⟩ => rfl | ⟨1, _⟩ => rfl
  have er : ridx_main_v55 (ix2 n u) k = ix2 k u := funext fun a => by match a with | ⟨0, _⟩ => rfl | ⟨1, _⟩ => rfl
  rw [el, er, val_main_v54_apply, v53_apply a0 a1 a2 a3 a4 a5 a6 a7 a8 a9 g hg]
  subst hg
  rfl

end Layer3

section Whole

variable (a0 : (⟨2, ![NN, 128]⟩ : Shape).Idx → EReal) (a1 : IVec ⟨2, ![2, EE]⟩ 32)
  (a2 : (⟨2, ![128, 32]⟩ : Shape).Idx → EReal) (a3 : (⟨1, ![32]⟩ : Shape).Idx → EReal)
  (a4 : (⟨2, ![32, 32]⟩ : Shape).Idx → EReal) (a5 : (⟨1, ![32]⟩ : Shape).Idx → EReal)
  (a6 : (⟨2, ![32, 32]⟩ : Shape).Idx → EReal) (a7 : (⟨1, ![32]⟩ : Shape).Idx → EReal)
  (a8 : (⟨2, ![32, 32]⟩ : Shape).Idx → EReal) (a9 : (⟨1, ![32]⟩ : Shape).Idx → EReal)
  (a10 : (⟨2, ![32, 1]⟩ : Shape).Idx → EReal) (a11 : (⟨1, ![1]⟩ : Shape).Idx → EReal)

/-- THE REFERENCE'S RESULT AT `(n, u)` is the three-layer network that takes the neighbour sum first in every layer,
    over the row-fetching and landing relations read off the program's two integer columns. -/
theorem ref_apply (n : Fin NN) (u : Fin 1) :
    val_main_v58 (F := Ideal) a0 a1 a2 a3 a4 a5 a6 a7 a8 a9 a10 a11 (ix2 n u)
      = rOut (srcRow (srcCol a1)) (lands (dstCol a1)) (mat a0) (mat a2) (vec a3) (mat a4) (vec a5) (mat a6) (vec a7)
          (mat a8) (vec a9) (mat a10) (vec a11) n u := by
  unfold rOut
  exact v58_apply a0 a1 a2 a3 a4 a5 a6 a7 a8 a9 a10 a11 _
    (funext fun n => funext fun j => v43_apply a0 a1 a2 a3 a4 a5 a6 a7 a8 a9 _
      (funext fun n => funext fun j => v23_apply a0 a1 a2 a3 a4 a5 n j) n j) n u

/-- The same, as an equation between whole arrays. -/
theorem ref_fun :
    val_main_v58 (F := Ideal) a0 a1 a2 a3 a4 a5 a6 a7 a8 a9 a10 a11
      = fun i => rOut (srcRow (srcCol a1)) (lands (dstCol a1)) (mat a0) (mat a2) (vec a3) (mat a4) (vec a5) (mat a6) (vec a7)
          (mat a8) (vec a9) (mat a10) (vec a11) (i 0) (i 1) := by
  funext i
  obtain ⟨n, u, rfl⟩ : ∃ (n : Fin NN) (u : Fin 1), i = ix2 n u := ⟨i 0, i 1, eq_ix2 i⟩
  exact ref_apply a0 a1 a2 a3 a4 a5 a6 a7 a8 a9 a10 a11 n u

end Whole

section Run
open Idealize.SL.Sem Idealize.ShloMosaic.TcCoe

/-- The reference run's result buffer, as the run states it, is that network of the arguments' launch contents. -/
theorem res_fun (m : (ℓ : Loc nD τ sig) → Buf (Elt Ideal) ℓ) (c : Dev nD) :
    Cert.ReferenceIdeal.Value.res_main_v58 (F := Ideal) m c
      = fun i : (⟨2, ![NN, 1]⟩ : Shape).Idx =>
          rOut (srcRow (srcCol (m ((c.tc : Thread nD τ).loc main_arg1)))) (lands (dstCol (m ((c.tc : Thread nD τ).loc main_arg1))))
            (mat (m ((c.tc : Thread nD τ).loc main_arg0))) (mat (m ((c.tc : Thread nD τ).loc main_arg2)))
            (vec (m ((c.tc : Thread nD τ).loc main_arg3))) (mat (m ((c.tc : Thread nD τ).loc main_arg4)))
            (vec (m ((c.tc : Thread nD τ).loc main_arg5))) (mat (m ((c.tc : Thread nD τ).loc main_arg6)))
            (vec (m ((c.tc : Thread nD τ).loc main_arg7))) (mat (m ((c.tc : Thread nD τ).loc main_arg8)))
            (vec (m ((c.tc : Thread nD τ).loc main_arg9))) (mat (m ((c.tc : Thread nD τ).loc main_arg10)))
            (vec (m ((c.tc : Thread nD τ).loc main_arg11))) (i 0) (i 1) :=
  (val_main_v58_eq m c).trans (ref_fun _ _ _ _ _ _ _ _ _ _ _ _)

/-- The same, read at `(n, u)`. -/
theorem res_apply (m : (ℓ : Loc nD τ sig) → Buf (Elt Ideal) ℓ) (c : Dev nD) (n : Fin NN) (u : Fin 1) :
    Cert.ReferenceIdeal.Value.res_main_v58 (F := Ideal) m c (ix2 n u)
      = rOut (srcRow (srcCol (m ((c.tc : Thread nD τ).loc main_arg1)))) (lands (dstCol (m ((c.tc : Thread nD τ).loc main_arg1))))
          (mat (m ((c.tc : Thread nD τ).loc main_arg0))) (mat (m ((c.tc : Thread nD τ).loc main_arg2)))
          (vec (m ((c.tc : Thread nD τ).loc main_arg3))) (mat (m ((c.tc : Thread nD τ).loc main_arg4)))
          (vec (m ((c.tc : Thread nD τ).loc main_arg5))) (mat (m ((c.tc : Thread nD τ).loc main_arg6)))
          (vec (m ((c.tc : Thread nD τ).loc main_arg7))) (mat (m ((c.tc : Thread nD τ).loc main_arg8)))
          (vec (m ((c.tc : Thread nD τ).loc main_arg9))) (mat (m ((c.tc : Thread nD τ).loc main_arg10)))
          (vec (m ((c.tc : Thread nD τ).loc main_arg11))) n u :=
  congrFun (res_fun m c) (ix2 n u)

end Run

end Cert.Gin.Ref

end
-- ==== Proof.Algebra.lean ====
/-
  THE ALGEBRA OF THE TWO ORDERS.

  On real entries the neighbour sum is linear, so multiplying by a weight matrix before or after it gives the same
  table:
      ∑ k, (g n k + ∑ e, [L e n] g (r e) k) * w k j  =  (∑ k, g n k * w k j) + ∑ e, [L e n] (∑ k, g (r e) k * w k j).
  (Distribute the product over the sum, exchange the two finite sums, and pull the indicator out of the inner sum.)
  This fails on the extended reals, where the product does not distribute over a sum that mixes +∞ and −∞; so every
  table is assumed to have real entries, each building block of the network is shown to map real tables to real tables
  with an explicit real formula, and the identity is proved for those real formulas.
-/
import proofs.«120293_j27908697489545_2_alg».proof.Proof.Spec
import Mathlib.Data.EReal.Basic
import Mathlib.Algebra.BigOperators.Ring.Finset

noncomputable section

open scoped BigOperators

namespace Cert.Gin

/-! ### The embedding of the reals commutes with the building blocks -/

/-- A finite sum of embedded reals is the embedded sum. -/
theorem coe_sum {ι : Type*} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, EReal.coe_add, ih]

/-- The embedding commutes with the positive part. -/
theorem coe_max_zero (a : ℝ) : max ((a : ℝ) : EReal) 0 = ((max a 0 : ℝ) : EReal) := by
  rw [← EReal.coe_zero]
  exact (EReal.coe_strictMono.monotone.map_max).symm

/-- The embedding commutes with an indicator. -/
theorem coe_ite (c : Prop) [Decidable c] (a : ℝ) :
    (if c then ((a : ℝ) : EReal) else 0) = ((if c then a else 0 : ℝ) : EReal) := by
  split_ifs
  · rfl
  · exact EReal.coe_zero.symm

/-! ### Linearity of an indicator-weighted sum, over arbitrary finite index types -/

/-- Multiplying after adding an indicator-weighted sum equals adding the indicator-weighted sum of the products. -/
theorem sum_add_indicator_mul {ι κ : Type*} [Fintype ι] [Fintype κ] (P : ι → Prop) [∀ e, Decidable (P e)]
    (g0 : κ → ℝ) (gr : ι → κ → ℝ) (w : κ → ℝ) :
    ∑ k, (g0 k + ∑ e, if P e then gr e k else 0) * w k
      = (∑ k, g0 k * w k) + ∑ e, if P e then (∑ k, gr e k * w k) else 0 := by
  simp only [add_mul, Finset.sum_add_distrib, Finset.sum_mul]
  congr 1
  rw [Finset.sum_comm]
  refine Finset.sum_congr rfl fun e _ => ?_
  split_ifs
  · rfl
  · simp

section
variable (r : Fin EE → Fin NN) (L : Fin EE → Fin NN → Prop) [∀ e n, Decidable (L e n)]

/-- The neighbour sum of a real table. -/
def aggR {C : Nat} (g : Fin NN → Fin C → ℝ) : Fin NN → Fin C → ℝ :=
  fun n k => ∑ e : Fin EE, if L e n then g (r e) k else 0

/-- The product of a real table with a real weight matrix. -/
def mmR {M K J : Nat} (g : Fin M → Fin K → ℝ) (w : Fin K → Fin J → ℝ) : Fin M → Fin J → ℝ :=
  fun n j => ∑ k : Fin K, g n k * w k j

/-- The neighbour sum of an embedded real table is the embedded real neighbour sum. -/
theorem agg_coe {C : Nat} (g : Fin NN → Fin C → ℝ) :
    agg r L (fun n k => ((g n k : ℝ) : EReal)) = fun n k => ((aggR r L g n k : ℝ) : EReal) := by
  funext n k
  show (∑ e : Fin EE, if L e n then ((g (r e) k : ℝ) : EReal) else 0)
      = ((∑ e : Fin EE, if L e n then g (r e) k else 0 : ℝ) : EReal)
  rw [← coe_sum]
  exact Finset.sum_congr rfl fun e _ => coe_ite _ _

/-- The product of embedded real tables is the embedded real product. -/
theorem mm_coe {M K J : Nat} (g : Fin M → Fin K → ℝ) (w : Fin K → Fin J → ℝ) :
    mm (fun n k => ((g n k : ℝ) : EReal)) (fun k j => ((w k j : ℝ) : EReal))
      = fun n j => ((mmR g w n j : ℝ) : EReal) := by
  funext n j
  show (∑ k : Fin K, ((g n k : ℝ) : EReal) * ((w k j : ℝ) : EReal)) = ((∑ k : Fin K, g n k * w k j : ℝ) : EReal)
  rw [← coe_sum]
  exact Finset.sum_congr rfl fun k _ => (EReal.coe_mul _ _).symm

/-- Linearity of the neighbour sum on real tables: the product of the sum is the sum of the products. -/
theorem mmR_add_aggR {K J : Nat} (g : Fin NN → Fin K → ℝ) (w : Fin K → Fin J → ℝ) (n : Fin NN) (j : Fin J) :
    mmR g w n j + aggR r L (mmR g w) n j = mmR (fun n k => g n k + aggR r L g n k) w n j :=
  (sum_add_indicator_mul (fun e => L e n) (fun k => g n k) (fun e k => g (r e) k) (fun k => w k j)).symm

/-- One layer on real tables (either order; they agree by linearity). -/
def layerR {K : Nat} (g : Fin NN → Fin K → ℝ) (wa : Fin K → Fin 32 → ℝ) (ba : Fin 32 → ℝ)
    (wb : Fin 32 → Fin 32 → ℝ) (bb : Fin 32 → ℝ) : Fin NN → Fin 32 → ℝ :=
  fun n j => mmR (fun n k => max (mmR (fun n k => g n k + aggR r L g n k) wa n k + ba k) 0) wb n j + bb j

/-- The last layer on real tables. -/
def finalR (g : Fin NN → Fin 32 → ℝ) (w3 : Fin 32 → Fin 1 → ℝ) (b3 : Fin 1 → ℝ) : Fin NN → Fin 1 → ℝ :=
  fun n u => mmR (fun n k => g n k + aggR r L g n k) w3 n u + b3 u

theorem rLayer_coe {K : Nat} (g : Fin NN → Fin K → ℝ) (wa : Fin K → Fin 32 → ℝ) (ba : Fin 32 → ℝ)
    (wb : Fin 32 → Fin 32 → ℝ) (bb : Fin 32 → ℝ) :
    rLayer r L (fun n k => ((g n k : ℝ) : EReal)) (fun k j => ((wa k j : ℝ) : EReal)) (fun k => ((ba k : ℝ) : EReal))
        (fun k j => ((wb k j : ℝ) : EReal)) (fun j => ((bb j : ℝ) : EReal))
      = fun n j => ((layerR r L g wa ba wb bb n j : ℝ) : EReal) := by
  funext n j
  simp only [rLayer, layerR, agg_coe, ← EReal.coe_add, mm_coe, coe_max_zero]

theorem kLayer_coe {K : Nat} (g : Fin NN → Fin K → ℝ) (wa : Fin K → Fin 32 → ℝ) (ba : Fin 32 → ℝ)
    (wb : Fin 32 → Fin 32 → ℝ) (bb : Fin 32 → ℝ) :
    kLayer r L (fun n k => ((g n k : ℝ) : EReal)) (fun k j => ((wa k j : ℝ) : EReal)) (fun k => ((ba k : ℝ) : EReal))
        (fun k j => ((wb k j : ℝ) : EReal)) (fun j => ((bb j : ℝ) : EReal))
      = fun n j => ((layerR r L g wa ba wb bb n j : ℝ) : EReal) := by
  funext n j
  simp only [kLayer, layerR, mm_coe, agg_coe, ← EReal.coe_add, coe_max_zero, mmR_add_aggR]

theorem rFinal_coe (g : Fin NN → Fin 32 → ℝ) (w3 : Fin 32 → Fin 1 → ℝ) (b3 : Fin 1 → ℝ) :
    rFinal r L (fun n k => ((g n k : ℝ) : EReal)) (fun k j => ((w3 k j : ℝ) : EReal)) (fun u => ((b3 u : ℝ) : EReal))
      = fun n u => ((finalR r L g w3 b3 n u : ℝ) : EReal) := by
  funext n u
  simp only [rFinal, finalR, agg_coe, ← EReal.coe_add, mm_coe]

theorem kFinal_coe (g : Fin NN → Fin 32 → ℝ) (w3 : Fin 32 → Fin 1 → ℝ) (b3 : Fin 1 → ℝ) :
    kFinal r L (fun n k => ((g n k : ℝ) : EReal)) (fun k j => ((w3 k j : ℝ) : EReal)) (fun u => ((b3 u : ℝ) : EReal))
      = fun n u => ((finalR r L g w3 b3 n u : ℝ) : EReal) := by
  funext n u
  simp only [kFinal, finalR, mm_coe, agg_coe, ← EReal.coe_add, mmR_add_aggR]

/-- On real tables the two orders of a layer agree, and the result is again a real table. -/
theorem layer_eq {K : Nat} {f : Fin NN → Fin K → EReal} {wa : Fin K → Fin 32 → EReal} {ba : Fin 32 → EReal}
    {wb : Fin 32 → Fin 32 → EReal} {bb : Fin 32 → EReal}
    (hf : RealTable f) (hwa : RealTable wa) (hba : RealVec ba) (hwb : RealTable wb) (hbb : RealVec bb) :
    kLayer r L f wa ba wb bb = rLayer r L f wa ba wb bb ∧ RealTable (rLayer r L f wa ba wb bb) := by
  obtain ⟨g, rfl⟩ := hf
  obtain ⟨wA, rfl⟩ := hwa
  obtain ⟨bA, rfl⟩ := hba
  obtain ⟨wB, rfl⟩ := hwb
  obtain ⟨bB, rfl⟩ := hbb
  rw [kLayer_coe, rLayer_coe]
  exact ⟨rfl, ⟨_, rfl⟩⟩

/-- On real tables the two orders of the last layer agree. -/
theorem final_eq {f : Fin NN → Fin 32 → EReal} {w3 : Fin 32 → Fin 1 → EReal} {b3 : Fin 1 → EReal}
    (hf : RealTable f) (hw3 : RealTable w3) (hb3 : RealVec b3) :
    kFinal r L f w3 b3 = rFinal r L f w3 b3 := by
  obtain ⟨g, rfl⟩ := hf
  obtain ⟨w, rfl⟩ := hw3
  obtain ⟨b, rfl⟩ := hb3
  rw [kFinal_coe, rFinal_coe]

/-- On real inputs the two orders of the whole network agree. -/
theorem out_eq
    {x : Fin NN → Fin 128 → EReal} {w1a : Fin 128 → Fin 32 → EReal} {b1a : Fin 32 → EReal}
    {w1b : Fin 32 → Fin 32 → EReal} {b1b : Fin 32 → EReal} {w2a : Fin 32 → Fin 32 → EReal} {b2a : Fin 32 → EReal}
    {w2b : Fin 32 → Fin 32 → EReal} {b2b : Fin 32 → EReal} {w3 : Fin 32 → Fin 1 → EReal} {b3 : Fin 1 → EReal}
    (hx : RealTable x) (hw1a : RealTable w1a) (hb1a : RealVec b1a) (hw1b : RealTable w1b) (hb1b : RealVec b1b)
    (hw2a : RealTable w2a) (hb2a : RealVec b2a) (hw2b : RealTable w2b) (hb2b : RealVec b2b)
    (hw3 : RealTable w3) (hb3 : RealVec b3) :
    kOut r L x w1a b1a w1b b1b w2a b2a w2b b2b w3 b3 = rOut r L x w1a b1a w1b b1b w2a b2a w2b b2b w3 b3 := by
  obtain ⟨e1, h1⟩ := layer_eq r L hx hw1a hb1a hw1b hb1b
  obtain ⟨e2, h2⟩ := layer_eq r L h1 hw2a hb2a hw2b hb2b
  unfold kOut rOut
  rw [e1, e2]
  exact final_eq r L h2 hw3 hb3

end

end Cert.Gin

end
-- ==== Proof.Finite.lean ====
/-
  THE INPUTS ARE REAL.

  The precondition computes, for each of the eleven floating-point inputs, whether every entry x satisfies |x| < +∞,
  and takes the conjunction of the eleven answers. On the extended reals |x| = max x (−x), which is +∞ exactly at the
  two infinities; so an entry passing the test is a real number, and an input all of whose entries pass is a table (or
  a vector) of real numbers. The conjunction over all entries of an array is opened by the lemma that a fold of `and`
  that came out true met only true bits, never by evaluating it.
-/
import proofs.«120293_j27908697489545_2_alg».proof.Pre_finite_inputs
import proofs.«120293_j27908697489545_2_alg».proof.Proof.Gen.Pre_finite_inputs
import proofs.«120293_j27908697489545_2_alg».proof.Proof.Spec
import Idealize.ShloMosaic.Lib.ReduceAll

noncomputable section

namespace Cert.Gin

open Idealize.ShloMosaic Idealize.ShloMosaic.ValueIdx
open Cert.Pre_finite_inputs

/-- The shape of rank zero has a single index. -/
instance : Subsingleton S_.Idx := ⟨fun _ _ => funext fun d => d.elim0⟩

theorem ofBool_eq_one {b : Bool} : BitVec.ofBool b = 1#1 ↔ b = true := by cases b <;> decide

/-- An extended real whose absolute value is below +∞ is a real number. -/
theorem real_of_abs_lt_top (x : EReal) (h : max x (-x) < ⊤) : ∃ y : ℝ, x = (y : EReal) := by
  induction x with
  | bot => simp at h
  | coe y => exact ⟨y, rfl⟩
  | top => simp at h

/-- The bit pattern 0x7F800000 denotes +∞. -/
theorem ofBits_inf : Ideal.ofBits .f32 0x7F800000#32 = (⊤ : EReal) := by simp [Ideal.ofBits, Ideal.ieee]

/-- The comparison bit of the test |x| < +∞, decoded. -/
theorem real_of_cmp (x : EReal)
    (h : FloatOps.cmpf (F := Ideal) (φ := .f32) .olt (FloatOps.hostAbsf (F := Ideal) (φ := .f32) x)
          (FloatOps.ofBits (F := Ideal) .f32 0x7F800000#32) = 1#1) :
    ∃ y : ℝ, x = (y : EReal) := by
  change BitVec.ofBool (decide (max x (-x) < Ideal.ofBits .f32 0x7F800000#32)) = 1#1 at h
  rw [ofBits_inf, ofBool_eq_one, decide_eq_true_eq] at h
  exact real_of_abs_lt_top x h

/-- One input's test: if the conjunction over all entries of |a i| < +∞ holds, every entry of a is real. -/
theorem real_of_all {s : Shape} {axes : List (Fin s.rank)} (a : FVec Ideal s .f32)
    (hb : S_.BroadcastsInDim s (![] : Fin 0 → Fin s.rank)) (hr : s.ReducesTo axes S_) (hS : 0 < S_.numel) (j : S_.Idx)
    (e : Host.reduce IntOp.andi
          (cmpf .olt (Host.absf a) (broadcastInDim s ![] hb (constant (F := Ideal) S_ .f32 0x7F800000#32)))
          (constantI S_ 1 1#1) hr hS j = 1#1)
    (i : s.Idx) : ∃ y : ℝ, a i = (y : EReal) :=
  real_of_cmp (a i) (Host.reduce_andi_all _ _ hr hS j e i)

/-- An array of rank two with real entries reads as a real table. -/
theorem realTable_of {A B : Nat} (a : (⟨2, ![A, B]⟩ : Shape).Idx → EReal) (h : ∀ i, ∃ y : ℝ, a i = (y : EReal)) :
    RealTable (mat a) := by
  choose g hg using h
  exact ⟨fun i j => g (ix2 i j), funext fun i => funext fun j => hg (ix2 i j)⟩

/-- An array of rank one with real entries reads as a real vector. -/
theorem realVec_of {A : Nat} (a : (⟨1, ![A]⟩ : Shape).Idx → EReal) (h : ∀ i, ∃ y : ℝ, a i = (y : EReal)) :
    RealVec (vec a) := by
  choose g hg using h
  exact ⟨fun i => g (ix1 i), funext fun i => hg (ix1 i)⟩

/-- THE PRECONDITION DECODED: every floating-point input is a table or a vector of real numbers. -/
theorem real_of_pre [Cert.Pre_finite_inputs.Facts]
    (a0 : FVec Ideal S100000x128 .f32) (a1 : IVec S2x1600000 32) (a2 : FVec Ideal S128x32 .f32)
    (a3 : FVec Ideal S32 .f32) (a4 : FVec Ideal S32x32 .f32) (a5 : FVec Ideal S32 .f32) (a6 : FVec Ideal S32x32 .f32)
    (a7 : FVec Ideal S32 .f32) (a8 : FVec Ideal S32x32 .f32) (a9 : FVec Ideal S32 .f32) (a10 : FVec Ideal S32x1 .f32)
    (a11 : FVec Ideal S1 .f32)
    (h : Cert.Pre_finite_inputs.fn (F := Ideal) a0 a1 a2 a3 a4 a5 a6 a7 a8 a9 a10 a11 = fun _ => 1#1) :
    RealTable (mat a0) ∧ RealTable (mat a2) ∧ RealVec (vec a3) ∧ RealTable (mat a4) ∧ RealVec (vec a5)
      ∧ RealTable (mat a6) ∧ RealVec (vec a7) ∧ RealTable (mat a8) ∧ RealVec (vec a9) ∧ RealTable (mat a10)
      ∧ RealVec (vec a11) := by
  have e := congrFun h ix0
  dsimp only [fn, fn_part1, fn_part2, fn_part3, andi] at e
  simp only [IntOp.andi_eq_one] at e
  obtain ⟨⟨⟨⟨⟨⟨⟨⟨⟨⟨e0, e2⟩, e3⟩, e4⟩, e5⟩, e6⟩, e7⟩, e8⟩, e9⟩, e10⟩, e11⟩ := e
  exact ⟨realTable_of a0 (real_of_all a0 _ _ _ _ e0), realTable_of a2 (real_of_all a2 _ _ _ _ e2),
    realVec_of a3 (real_of_all a3 _ _ _ _ e3), realTable_of a4 (real_of_all a4 _ _ _ _ e4),
    realVec_of a5 (real_of_all a5 _ _ _ _ e5), realTable_of a6 (real_of_all a6 _ _ _ _ e6),
    realVec_of a7 (real_of_all a7 _ _ _ _ e7), realTable_of a8 (real_of_all a8 _ _ _ _ e8),
    realVec_of a9 (real_of_all a9 _ _ _ _ e9), realTable_of a10 (real_of_all a10 _ _ _ _ e10),
    realVec_of a11 (real_of_all a11 _ _ _ _ e11)⟩

end Cert.Gin

end
-- ==== Proof.Bridge.lean ====
/-
  THE TWO PROGRAMS COMPUTE THE SAME INDEX COLUMNS.

  Both programs slice the two rows off the [2, 1600000] edge array, flatten them, wrap negative source numbers by
  adding 100000, and stand each row up as a column. The operations and their literals are the same on both sides, so
  the two source columns are one term of the edge array, and so are the two destination columns.
-/
import proofs.«120293_j27908697489545_2_alg».proof.Proof.KAgg
import proofs.«120293_j27908697489545_2_alg».proof.Proof.RefStages

noncomputable section

namespace Cert.Gin

open Idealize.ShloMosaic

theorem srcCol_eq (a1 : IVec ⟨2, ![2, EE]⟩ 32) : Cert.Gin.Ref.srcCol a1 = Cert.KernelIdeal.Hand.srcCol a1 := by
  unfold Cert.Gin.Ref.srcCol Cert.KernelIdeal.Hand.srcCol Cert.KernelIdeal.Hand.srcFlat
    Cert.ReferenceIdeal.Read.val_main_v9 Cert.ReferenceIdeal.Read.val_main_v8 Cert.ReferenceIdeal.Read.val_main_v5
    Cert.ReferenceIdeal.Read.val_main_v7 Cert.ReferenceIdeal.Read.val_main_v4 Cert.ReferenceIdeal.Read.val_main_v6
    Cert.ReferenceIdeal.Read.val_main_c Cert.ReferenceIdeal.Read.val_main_c_0 Cert.ReferenceIdeal.Read.val_main_v1
    Cert.ReferenceIdeal.Read.val_main_v0
  rfl

theorem dstCol_eq (a1 : IVec ⟨2, ![2, EE]⟩ 32) : Cert.Gin.Ref.dstCol a1 = Cert.KernelIdeal.Hand.dstCol a1 := by
  unfold Cert.Gin.Ref.dstCol Cert.KernelIdeal.Hand.dstCol Cert.KernelIdeal.Hand.dstFlat
    Cert.ReferenceIdeal.Read.val_main_v12 Cert.ReferenceIdeal.Read.val_main_v3 Cert.ReferenceIdeal.Read.val_main_v2
  rfl

end Cert.Gin

end
-- ==== Proof.lean ====
/-
  Two programs compute a three-layer graph network on 100000 nodes and 1600000 edges. A layer adds to each node's
  features the sum of its in-neighbours' features (a row gather by source number followed by a segment sum by
  destination number) and applies a small dense network. The reference aggregates the features and then multiplies by
  the layer's first weight matrix; the kernel multiplies first — three row-tiled projection kernels and three fused
  epilogue kernels, with the gather and the segment sum on the host between them — and aggregates the narrower product.

  At the exact instance (floats are extended reals, a change of float format is the identity) the two results are
  equal because the neighbour sum is linear: (f + agg f) · W = f · W + agg (f · W). That law distributes a product
  over a sum and exchanges two finite sums, which holds on real entries and fails at infinities, so the proof uses the
  precondition: every float input is finite, hence every intermediate table is real.

  The pieces: the kernel program's run with its result named and read as the product-first network (KRun, KKeep,
  KReg0–5, KPay, KAgg, KStage, KTab, KOut); the reference's run read as the aggregate-first network (RefStages,
  RefValue, over the generated run and its read-at-an-index lemmas); the finiteness of the inputs (Finite); the
  equality of the two networks on real tables (Algebra, over Spec); and that both programs compute the same two index
  columns from the edge array (Bridge). The three frames are the generated ones, and the idealized kernel is the
  kernel's own text read at the exact instance, so nothing is owed for the idealization.
-/
import proofs.«120293_j27908697489545_2_alg».proof.Defs
import proofs.«120293_j27908697489545_2_alg».proof.Proof.Gen.Kernel
import proofs.«120293_j27908697489545_2_alg».proof.Proof.Gen.Kernel.Skeleton
import proofs.«120293_j27908697489545_2_alg».proof.Proof.Gen.Kernel.Launch
import proofs.«120293_j27908697489545_2_alg».proof.Proof.Gen.Kernel.Points
import proofs.«120293_j27908697489545_2_alg».proof.Proof.Gen.Kernel.Frame
import proofs.«120293_j27908697489545_2_alg».proof.Proof.Gen.KernelIdeal
import proofs.«120293_j27908697489545_2_alg».proof.Proof.Gen.KernelIdeal.Skeleton
import proofs.«120293_j27908697489545_2_alg».proof.Proof.Gen.KernelIdeal.Launch
import proofs.«120293_j27908697489545_2_alg».proof.Proof.Gen.KernelIdeal.Points
import proofs.«120293_j27908697489545_2_alg».proof.Proof.Gen.KernelIdeal.Frame
import proofs.«120293_j27908697489545_2_alg».proof.Proof.Gen.ReferenceIdeal
import proofs.«120293_j27908697489545_2_alg».proof.Proof.Gen.Pre_finite_inputs
import proofs.«120293_j27908697489545_2_alg».proof.Proof.Gen.ReferenceIdeal.Run
import proofs.«120293_j27908697489545_2_alg».proof.Proof.Gen.ReferenceIdeal.Read
import proofs.«120293_j27908697489545_2_alg».proof.Proof.KOut
import proofs.«120293_j27908697489545_2_alg».proof.Proof.RefValue
import proofs.«120293_j27908697489545_2_alg».proof.Proof.Algebra
import proofs.«120293_j27908697489545_2_alg».proof.Proof.Finite
import proofs.«120293_j27908697489545_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and hands its arguments back. -/
theorem frame_k : Cert.frame_Kernel := fun m ρ _ => Cert.Kernel.Gen.frame m ρ

/-- The idealized kernel program runs and hands its arguments back. -/
theorem frame_ki : Cert.frame_KernelIdeal := fun m ρ _ => Cert.KernelIdeal.Gen.frame m ρ

/-- The idealized reference runs and hands its arguments back: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both idealized programs run and end with equal results: the kernel's
    result table is the product-first network, the reference's the aggregate-first one, of the same real tables and
    the same index columns. -/
theorem algebraic : Cert.algebraic_KernelIdeal_ReferenceIdeal := by
  intro m ρ m' ρ' hpre hagree
  refine ⟨fun c => Cert.KernelIdeal.Hand.stOut m c, Cert.KernelIdeal.Hand.run_value m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11⟩ := hagree c
  obtain ⟨hx, hw1a, hb1a, hw1b, hb1b, hw2a, hb2a, hw2b, hb2b, hw3, hb3⟩ :=
    Cert.Gin.real_of_pre _ _ _ _ _ _ _ _ _ _ _ _ (hpre c)
  funext i
  obtain ⟨n, u, rfl⟩ : ∃ (n : Fin 100000) (u : Fin 1), i = ValueIdx.ix2 n u := ⟨i 0, i 1, ValueIdx.eq_ix2 i⟩
  rw [Cert.Gin.Ref.res_apply m' c n u, e0, e1, e2, e3, e4, e5, e6, e7, e8, e9, e10, e11, Cert.Gin.srcCol_eq, Cert.Gin.dstCol_eq]
  refine Eq.trans ?_ (congrFun (congrFun (Cert.KernelIdeal.Hand.stOut_tab m c) n) u).symm
  exact (congrFun (congrFun (Cert.Gin.out_eq _ _ hx hw1a hb1a hw1b hb1b hw2a hb2a hw2b hb2b hw3 hb3) n) u).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
